-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S8192x1024 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x8192 : Shape := ⟨2, ![1, 8192]⟩
abbrev S512x1024 : Shape := ⟨2, ![512, 1024]⟩
abbrev S2048x1024 : Shape := ⟨2, ![2048, 1024]⟩
abbrev S1x2048 : Shape := ⟨2, ![1, 2048]⟩
abbrev S2048x1 : Shape := ⟨2, ![2048, 1]⟩
abbrev S1024x512 : Shape := ⟨2, ![1024, 512]⟩
abbrev S2048x512 : Shape := ⟨2, ![2048, 512]⟩
abbrev S2048 : Shape := ⟨1, ![2048]⟩
abbrev S256x1024 : Shape := ⟨2, ![256, 1024]⟩
abbrev S1x256 : Shape := ⟨2, ![1, 256]⟩
abbrev S1024x256 : Shape := ⟨2, ![1024, 256]⟩
abbrev S2048x256 : Shape := ⟨2, ![2048, 256]⟩

abbrev nBuf : Space → Nat
  | .hbm => 7
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S8192x1024, .bf16⟩
  | .hbm, ⟨5, _⟩ => ⟨S1x8192, .f32⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S2048x1, .f32⟩
  | .local _ .vmem, ⟨12, _⟩ => ⟨S2048x1, .f32⟩
  | .local _ .vmem, ⟨13, _⟩ => ⟨S2048x1024, .bf16⟩
  | .local _ .vmem, ⟨14, _⟩ => ⟨S2048x1024, .bf16⟩
  | .local _ .vmem, ⟨15, _⟩ => ⟨S256x1024, .bf16⟩
  | .local _ .vmem, ⟨16, _⟩ => ⟨S256x1024, .bf16⟩
  | .local _ .vmem, ⟨17, _⟩ => ⟨S1x256, .f32⟩
  | .local _ .vmem, ⟨18, _⟩ => ⟨S1x256, .f32⟩
  | .local _ .vmem, ⟨19, _⟩ => ⟨S2048x1024, .f32⟩
  | .local _ .vmem, ⟨20, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_16 : BitVec 32 := 0#32
  let v32 : BitVec 1 := Scalar.cmpi .ne v31 c0_i32_16
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  reduces_S2048x512_S2048 : S2048x512.Reduces [1] S2048
  shapeCasts_S2048_S2048x1 : S2048.ShapeCasts S2048x1
  broadcasts_S2048x1_S2048x512 : S2048x1.Broadcasts S2048x512
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S1024x1024_S1024x1024_S1024x1024_1_0_0_1_n_n_wf : DotDims.WF S1024x1024 S1024x1024 S1024x1024 [1] [0] [0] [1] [] []
  dot_S2048x1024_S1024x512_S2048x512_1_0_0_1_n_n_wf : DotDims.WF S2048x1024 S1024x512 S2048x512 [1] [0] [0] [1] [] []
  dot_S2048x1024_S1024x256_S2048x256_1_0_0_1_n_n_wf : DotDims.WF S2048x1024 S1024x256 S2048x256 [1] [0] [0] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x1024.size a
  hwx1_1 : ∀ i : grid1.Coords, EltTy.bits .bf16 = 32 ∨ (Rect.block (s := S8192x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .bf16 = 32 ∨ (Rect.block (s := S8192x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S8192x1024.size a
  hwx2_1 : ∀ i : grid2.Coords, EltTy.bits .bf16 = 32 ∨ (Rect.block (s := S8192x1024) S256x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x8192.size a
  hwx2_2 : ∀ i : grid2.Coords, EltTy.bits .f32 = 32 ∨ (Rect.block (s := S1x8192) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x1024.size a
  hwx2_3 : ∀ i : grid2.Coords, EltTy.bits .f32 = 32 ∨ (Rect.block (s := S8192x1024) S2048x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S1024x1024_S8192x1024_S1024x8192_0_1_1_0_n_n_wf : DotDims.WF S1024x1024 S8192x1024 S1024x8192 [0] [1] [1] [0] [] []
  dot_S1024x8192_S8192x1024_S8192x8192_0_1_1_0_n_n_wf : DotDims.WF S1024x8192 S8192x1024 S8192x8192 [0] [1] [1] [0] [] []
  dot_S8192x8192_S8192x1024_S8192x1024_1_0_0_1_n_n_wf : DotDims.WF S8192x8192 S8192x1024 S8192x1024 [1] [0] [0] [1] [] []

variable [Facts₀]

def dot_S1024x1024_S8192x1024_S1024x8192_0_1_1_0_n_n : DotDims S1024x1024 S8192x1024 S1024x8192 where
  lhsContracting := [0]
  rhsContracting := [1]
  lhsNonContracting := [1]
  rhsNonContracting := [0]
  lhsBatch := []
  rhsBatch := []
  wf := dot_S1024x1024_S8192x1024_S1024x8192_0_1_1_0_n_n_wf
def dot_S1024x8192_S8192x1024_S8192x8192_0_1_1_0_n_n : DotDims S1024x8192 S8192x1024 S8192x8192 where
  lhsContracting := [0]
  rhsContracting := [1]
  lhsNonContracting := [1]
  rhsNonContracting := [0]
  lhsBatch := []
  rhsBatch := []
  wf := dot_S1024x8192_S8192x1024_S8192x8192_0_1_1_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KRegion0.lean ====
/-
  The first pass of the kernel, y·W, one block of 1024 rows of y per grid point against the whole of W.

  At point t the pass is handed rows 1024·t … 1024·t + 1023 of y and all of W (W's index map is constant, so it is
  brought in once and stays), and leaves in its output block the product of the two, which the pipeline writes back
  to rows 1024·t … of the result. The body reads its two inputs whole, stores the output block whole, and keeps
  nothing from one point to the next, so what it leaves at a point is a function of that point's two input blocks
  alone. This module states that function, proves the body computes it on any three whole buffers, and packages the
  per-point facts the pipeline's launch theorem asks for, at an arbitrary state V of the buffers on entry.
-/
import proofs.«125493_j42185168781604_2_alg».proof.Proof.Gen.Kernel.Launch
import proofs.«125493_j42185168781604_2_alg».proof.Proof.Gen.Kernel.Skeleton
import proofs.«125493_j42185168781604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pass is handed -/

/-- Block of window w at point t, read off the array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of y: the staging buffer in use at a point holds that point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- All of W: brought in at the first point, found in place at every later one (its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 1024-by-1024 block: the one rectangle every access of the body goes through. -/
abbrev whole0 : Rect S1024x1024 := Rect.unit (s := S1024x1024) ![0, 0] S1024x1024.size inb_S1024x1024_S1024x1024_0_0

/-- The output block after the body: its single store, the product of the two input blocks. -/
def ywBlock (x0 x1 : Vec F S1024x1024 .f32) : Vec F S1024x1024 .bf16 :=
  View.canon [⟨whole0, k0_pay1 (View.ld x0 whole0) (View.ld x1 whole0)⟩]

/-- That one store covers the block. -/
theorem ywCover (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body on three whole buffers -/

set_option maxHeartbeats 1000000 in
/-- On whole buffers holding x0 and x1 and anything in the third, the body runs to the end, leaves the first two as
    they were and the third at the product block. -/
theorem sound_kernel0 (c : Dev nD) (E : Set ℕ) (i : grid0.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (ywBlock x0 x1)) -∗ K ⟨⟩))
      ⊢ wp frame (wpE (defs₀ (F := F)) Variants.none c none) E (cc0__yw_kernel i arg1 harg1 arg2 harg2 arg3 harg3) K := by
  simp only [cc0__yw_kernel_eq_skeleton]; unfold cc0__yw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ywCover _)

/-! ## The per-point facts of the pass -/

/-- What each buffer holds after the body at each point: the inputs their blocks, the output the product block;
    nothing else of the core is touched, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => ywBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = ywBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the run above applies; the rest of the core's
    state passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Kernel.lean ====
import proofs.«125493_j42185168781604_2_alg».proof.Proof.Gen.Kernel.Launch
import proofs.«125493_j42185168781604_2_alg».proof.Proof.Gen.Kernel.Skeleton
import proofs.«125493_j42185168781604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the per-row online log-sum-exp (grid 4 × 16), at the entry contents `V`

The body keeps a running maximum and a running sum in two scratch buffers carried from one grid point to the
next; at the first of every sixteen points it resets them, at the last it stores the output block. -/

theorem hz2 : (![0, 0] : Fin 2 → Nat) = fun _ => 0 := funext fun a => by fin_cases a <;> rfl

/-- A whole-shape store made last leaves its payload, whatever lay under it. -/
theorem read_writes_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's two conditionals -/

/-- The first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the first of every sixteen points. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional (the output store). -/
abbrev cond1_1 (i : grid1.Coords) : Prop := k1_cond2 i = 1#1
/-- It holds at the last of every sixteen points. -/
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly off the last of every sixteen points. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One step of the recurrence -/

/-- The running maximum after a point, from the two input blocks and the maximum before it. -/
abbrev stepM (x0 : Vec F S512x1024 .bf16) (x1 : Vec F S2048x1024 .bf16) (m : Vec F S2048x1 .f32) : Vec F S2048x1 .f32 :=
  k1_pay6 x1 x0 m
/-- The running sum after a point, from the two input blocks and the maximum and sum before it. -/
abbrev stepL (x0 : Vec F S512x1024 .bf16) (x1 : Vec F S2048x1024 .bf16) (m l : Vec F S2048x1 .f32) : Vec F S2048x1 .f32 :=
  k1_pay5 x1 x0 m m l

/-! ## The body's triple, case by case -/

set_option maxHeartbeats 2000000 in
/-- A middle point: neither conditional taken. The scratch pair moves one step; the output buffer is untouched. -/
theorem sound_kernel1_mid (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : ¬cond1_0 i) (hc1 : ¬cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare y
            ∗ owns (c : Thread nD τ) arg5 fullShare (stepM x0 x1 m) ∗ owns (c : Thread nD τ) arg6 fullShare (stepL x0 x1 m l)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_last _ _ hz2 _ _ _).trans ?_
    simp only [View.readAt_eq_ld, View.ld_unit_zero (S := S2048x1024) hz2, View.ld_unit_zero (S := S512x1024) hz2, View.ld_unit_zero (S := S2048x1) hz2]
  · iexists _; isplitr
    swap; · iexact HS1
    ipureintro
    refine (read_writes_last _ _ hz2 _ _ _).trans ?_
    simp only [View.readAt_eq_ld, View.ld_unit_zero (S := S2048x1024) hz2, View.ld_unit_zero (S := S512x1024) hz2, View.ld_unit_zero (S := S2048x1) hz2]

set_option maxHeartbeats 2000000 in
/-- The first of sixteen points: the reset taken, the output store not. Whatever the scratch pair held, it ends one step from the reset values; the output buffer is untouched. -/
theorem sound_kernel1_first (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : cond1_0 i) (hc1 : ¬cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare y
            ∗ owns (c : Thread nD τ) arg5 fullShare (stepM x0 x1 (k1_pay1 (F := F))) ∗ owns (c : Thread nD τ) arg6 fullShare (stepL x0 x1 (k1_pay1 (F := F)) (k1_pay2 (F := F)))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]
  · iexists _; isplitr
    swap; · iexact HS1
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]

set_option maxHeartbeats 2000000 in
/-- The last of sixteen points: the reset not taken, the output store taken. The scratch pair moves one step and the output buffer, whatever it held, ends at the maximum plus the logarithm of the sum, as a row. -/
theorem sound_kernel1_last (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : ¬cond1_0 i) (hc1 : cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare (k1_pay7 (stepM x0 x1 m) (stepL x0 x1 m l))
            ∗ owns (c : Thread nD τ) arg5 fullShare (stepM x0 x1 m) ∗ owns (c : Thread nD τ) arg6 fullShare (stepL x0 x1 m l)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]
  isplitl [HS0]
  · iexists _; isplitr
    swap; · iexact HS0
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2]
  · iexists _; isplitr
    swap; · iexact HS1
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2]

end Cert.Kernel.Hand
end
-- ==== Proof.KRegion1.lean ====
import proofs.«125493_j42185168781604_2_alg».proof.Proof.Gen.Kernel.Launch
import proofs.«125493_j42185168781604_2_alg».proof.Proof.Gen.Kernel.Skeleton
import proofs.«125493_j42185168781604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«125493_j42185168781604_2_alg».proof.Proof.KRegion1Kernel

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 at the entry contents `V`: the proof data, the invariant and the body obligation -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's likewise: fetched at the first of every sixteen points, its block index unmoved between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch pair, point by point -/

/-- The two scratch operands: whole scoped buffers of the kernel's own. -/
abbrev scM1_0 : Memref sig .tc .vmem S2048x1 .f32 := Memref.whole cc1_scratch0
abbrev scM1_1 : Memref sig .tc .vmem S2048x1 .f32 := Memref.whole cc1_scratch1

/-- The scratch pair (running maximum, running sum) BEFORE point `n`. Before the first point the pair is
    whatever the region finds — the value given here for `n = 0` is a placeholder nothing consults, since the body at
    a point `n` with `n % 16 = 0` overwrites both with the reset values before reading them. After point `n`: one
    step of the recurrence from the reset values if `n % 16 = 0`, from the pair before point `n` otherwise. -/
def scrAt (c : Dev nD) : (n : ℕ) → n ≤ cfg1.N → Vec F S2048x1 .f32 × Vec F S2048x1 .f32
  | 0, _ => (k1_pay1 (F := F), k1_pay2 (F := F))
  | n + 1, hn =>
    if n % 16 = 0 then
      (stepM (iblk1 V c 0 ⟨n, hn⟩) (iblk1 V c 1 ⟨n, hn⟩) (k1_pay1 (F := F)),
        stepL (iblk1 V c 0 ⟨n, hn⟩) (iblk1 V c 1 ⟨n, hn⟩) (k1_pay1 (F := F)) (k1_pay2 (F := F)))
    else
      (stepM (iblk1 V c 0 ⟨n, hn⟩) (iblk1 V c 1 ⟨n, hn⟩) (scrAt c n (Nat.le_of_succ_le hn)).1,
        stepL (iblk1 V c 0 ⟨n, hn⟩) (iblk1 V c 1 ⟨n, hn⟩) (scrAt c n (Nat.le_of_succ_le hn)).1 (scrAt c n (Nat.le_of_succ_le hn)).2)

/-- After a point that resets. -/
theorem scrAt_succ_reset (c : Dev nD) (n : ℕ) (hn : n + 1 ≤ cfg1.N) (h : n % 16 = 0) :
    scrAt V c (n + 1) hn = (stepM (iblk1 V c 0 ⟨n, hn⟩) (iblk1 V c 1 ⟨n, hn⟩) (k1_pay1 (F := F)),
        stepL (iblk1 V c 0 ⟨n, hn⟩) (iblk1 V c 1 ⟨n, hn⟩) (k1_pay1 (F := F)) (k1_pay2 (F := F))) := by
  rw [scrAt]; exact if_pos h

/-- After a point that does not. -/
theorem scrAt_succ_step (c : Dev nD) (n : ℕ) (hn : n + 1 ≤ cfg1.N) (h : ¬n % 16 = 0) :
    scrAt V c (n + 1) hn = (stepM (iblk1 V c 0 ⟨n, hn⟩) (iblk1 V c 1 ⟨n, hn⟩) (scrAt V c n (Nat.le_of_succ_le hn)).1,
        stepL (iblk1 V c 0 ⟨n, hn⟩) (iblk1 V c 1 ⟨n, hn⟩) (scrAt V c n (Nat.le_of_succ_le hn)).1 (scrAt V c n (Nat.le_of_succ_le hn)).2) := by
  rw [scrAt]; exact if_neg h

/-- The running maximum before point `t` (after point `t - 1`). -/
def mAt (c : Dev nD) (t : Fin (cfg1.N + 1)) : Vec F S2048x1 .f32 := (scrAt V c t.val (Nat.le_of_lt_succ t.isLt)).1
/-- The running sum before point `t` (after point `t - 1`). -/
def lAt (c : Dev nD) (t : Fin (cfg1.N + 1)) : Vec F S2048x1 .f32 := (scrAt V c t.val (Nat.le_of_lt_succ t.isLt)).2

/-! ## The invariant -/

/-- The core's scoped buffers that are neither a staging buffer of this region nor one of its two scratch operands,
    each whole at some contents. -/
def restSc (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The scoped rest with the two scratch operands set apart, as memrefs owned at some contents. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ (∃ d, owns (c : Thread nD τ) scM1_1 fullShare d) ∗ restSc (F := F) c) := by
  rw [scopedRest1_eq]; unfold restSc; simp only [scM1_0, scM1_1, owns_whole]
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) : sProp 𝕄) ⊢ iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) := by
    iintro ⟨A0, A1, A2, A3, A4, S0, S1, B0, B1, B2, B3, B4, B5, B6, B7⟩
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  have h₂ : (iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) := by
    iintro ⟨S0, S1, A0, A1, A2, A3, A4, B0, B1, B2, B3, B4, B5, B6, B7⟩
    isplitl [A0]; · iexact A0
    isplitl [A1]; · iexact A1
    isplitl [A2]; · iexact A2
    isplitl [A3]; · iexact A3
    isplitl [A4]; · iexact A4
    isplitl [S0]; · iexact S0
    isplitl [S1]; · iexact S1
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  exact BI.equiv_iff.mp ⟨h₁, h₂⟩

/-- The region invariant before position `n`: the two scratch operands at a pair that, after the first point, is
    the recurrence's (`scrAt`) and before it is whatever the region found; the other scoped buffers at anything; the
    generator register at some state. -/
def Phi1 (c : Dev nD) (n : ℕ) (hn : n ≤ cfg1.N) : sProp 𝕄 :=
  iprop(∃ m l, ⌜n ≠ 0 → m = (scrAt V c n hn).1 ∧ l = (scrAt V c n hn).2⌝ ∗ owns (c : Thread nD τ) scM1_0 fullShare m
    ∗ owns (c : Thread nD τ) scM1_1 fullShare l ∗ restSc (F := F) c ∗ (∃ r, prngReg c r))

/-! ## The pipeline's proof data -/

/-- The proof data of pipeline 1 on core `c`: the arrays as the region finds them (`V`); after the body at point
    `t` each input's buffer at its block, the output's at the maximum plus the logarithm of the sum after the point, as
    a row (consulted only where the body stores it: the last of every sixteen points); the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay7 (mAt V c t.succ) (lAt V c t.succ)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay7 (mAt V c t.succ) (lAt V c t.succ) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region — the generator register and the scoped rest — is the invariant before the
    first point: the scratch pair is whatever is found. -/
theorem Phi1_in (c : Dev nD) :
    iprop((∃ r, prngReg c r) ∗ Pipeline.scopedRest (Ix := Unit) (Name := ℕ) (U := UR sig nD τ) (Lvl := ℕ) spec1 c) ⊢ ((dat1 (F := F) V c).Φ 0 : sProp 𝕄) := by
  rw [show (dat1 V c).Φ 0 = Phi1 V c 0 (Nat.zero_le _) from rfl, scopedRest1_split]; unfold Phi1
  iintro ⟨Hg, ⟨%m, HS0⟩, ⟨%l, HS1⟩, HR⟩
  iexists m, l; isplitr; · ipureintro; intro h; exact absurd rfl h
  isplitl [HS0]; · iexact HS0
  isplitl [HS1]; · iexact HS1
  isplitl [HR]; · iexact HR
  iexact Hg

/-- After the last point the invariant gives them back: the scratch pair's named contents are forgotten. -/
theorem Phi1_out (c : Dev nD) :
    ((dat1 (F := F) V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = Phi1 V c cfg1.N (Nat.le_refl _) from rfl, scopedRest1_split]; unfold Phi1
  iintro ⟨%m, %l, -, HS0, HS1, HR, Hg⟩
  isplitl [Hg]; · iexact Hg
  isplitl [HS0]; · iexists m; iexact HS0
  isplitl [HS1]; · iexists l; iexact HS1
  iexact HR

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the point's position among its sixteen says which
    control case it is in; the invariant hands the body the scratch pair (at the recurrence's value after the first
    point, at anything before it, where the reset overwrites it) and takes it back one step on; at the last of
    sixteen the output buffer is stored whole, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl,
    show (dat1 V c).Φ t.castSucc = Phi1 V c t.val (Nat.le_of_lt t.isLt) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  unfold Phi1
  by_cases h0 : t.val % 16 = 0
  · have h1 : ¬t.val % 16 = 15 := by omega
    have hc1 : ¬cond1_1 (grid1.coords t) := fun h => h1 ((hcond1_1 t).mp h)
    rw [Dat.leavesExact_idle (dat1 V c) 2 t (idleAt1_2 t hc1) (noFlush1_2 t hc1)]
    iintro ⟨⟨%m, %l, -, HS0, HS1, HR, Hg⟩, Ho, ⟨%d0, H0⟩, ⟨%d1, H1⟩, ⟨%d2, H2⟩⟩
    iapply (sound_kernel1_first c Set.univ (grid1.coords t) _ _ _ _ _ _ _ _ _ _ ((hcond1_0 t).mpr h0) hc1 (iblk1 V c 0 t) (iblk1 V c 1 t) _ m l _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · iexists _, _; isplitr
      · ipureintro; intro _
        rw [scrAt_succ_reset V c t.val t.isLt h0]; exact ⟨rfl, rfl⟩
      isplitl [HS0]; · iexact HS0
      isplitl [HS1]; · iexact HS1
      isplitl [HR]; · iexact HR
      iexact Hg
    isplitl [Ho]; · iexact Ho
    isplitl [H0]; · iexact H0
    isplitl [H1]; · iexact H1
    iexists _; iexact H2
  · have hz : t.val ≠ 0 := fun h => h0 (by rw [h])
    have hc0 : ¬cond1_0 (grid1.coords t) := fun h => h0 ((hcond1_0 t).mp h)
    by_cases h1 : t.val % 16 = 15
    · rw [show (dat1 V c).leavesExact 2 t = owns (c : Thread nD τ) (st1_2 t) fullShare ((dat1 V c).after 2 t) from by
        unfold Dat.leavesExact; rw [liveAt1_2 t ((hcond1_1 t).mpr h1)], after1_2]
      rw [show mAt V c t.succ = (scrAt V c (t.val + 1) t.isLt).1 from rfl, show lAt V c t.succ = (scrAt V c (t.val + 1) t.isLt).2 from rfl,
        scrAt_succ_step V c t.val t.isLt h0]
      iintro ⟨⟨%m, %l, %hml, HS0, HS1, HR, Hg⟩, Ho, ⟨%d0, H0⟩, ⟨%d1, H1⟩, ⟨%d2, H2⟩⟩
      obtain ⟨rfl, rfl⟩ := hml hz
      iapply (sound_kernel1_last c Set.univ (grid1.coords t) _ _ _ _ _ _ _ _ _ _ hc0 ((hcond1_1 t).mpr h1) (iblk1 V c 0 t) (iblk1 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · iexists _, _; isplitr
        · ipureintro; intro _
          exact ⟨rfl, rfl⟩
        isplitl [HS0]; · iexact HS0
        isplitl [HS1]; · iexact HS1
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨%m, %l, %hml, HS0, HS1, HR, Hg⟩, Ho, ⟨%d0, H0⟩, ⟨%d1, H1⟩, ⟨%d2, H2⟩⟩
      obtain ⟨rfl, rfl⟩ := hml hz
      iapply (sound_kernel1_mid c Set.univ (grid1.coords t) _ _ _ _ _ _ _ _ _ _ hc0 hc1 (iblk1 V c 0 t) (iblk1 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · iexists _, _; isplitr
        · ipureintro; intro _
          rw [scrAt_succ_step V c t.val t.isLt h0]; exact ⟨rfl, rfl⟩
        isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.KRegion2.lean ====
import proofs.«125493_j42185168781604_2_alg».proof.Proof.Gen.Kernel.Launch
import proofs.«125493_j42185168781604_2_alg».proof.Proof.Gen.Kernel.Skeleton
import proofs.«125493_j42185168781604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the output pass

The third pallas_call walks a grid of 4 × 32 points. At point (i0, i1) it reads row block i0 of the
projected queries (2048 rows), row block i1 of the keys (256 rows) and the matching 256 entries of
the log-sum-exp row, and adds exp(s - lse) · h to the 2048 × 1024 output block i0, which stays in
its staging buffer over the 32 inner points: at i1 = 0 the body first overwrites the buffer with
zeros, at every point it stores buffer + contribution, and the block is written back after i1 = 31.

This file states what every staging buffer holds after the body at every point (for the output, by
recursion on the point), shows that the body run on those contents leaves them so, and bundles the
result as the pipeline's proof data and its body obligation, generic in the float type.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved), for any proof data whose array is `V`'s and whose body leaves the block
    in place. The three inputs are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the reset), from the grid coordinates: the inner coordinate is 0. -/
abbrev cond2_0 (i : grid2.Coords) : Prop := (Scalar.cmpi .ne (Scalar.extui (Scalar.cmpi .eq (BitVec.ofNat 32 (i 1).val) 0#32)) 0#32) = 1#1
/-- It holds exactly at the first of every 32 consecutive points — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- One staging buffer of the output window, through which its contents are stated (the choice does not matter:
    covering writes read back the same through any whole view). -/
abbrev VO2_3 : View sig .tc .vmem S2048x1024 .f32 := (Memref.whole cc2_stg3_0 : Memref sig .tc .vmem S2048x1024 .f32).view
/-- Each window's current staging memref at point `t`, as the pipeline passes it to the body, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)

/-! ## The body's run, case by case -/

set_option maxHeartbeats 1000000 in
/-- THE RESET CASE (inner coordinate 0). What the body's stores leave in the output's staging memref, as pieces (last
    first), with the proof that on whole staging memrefs — the inputs' at their contents, the output's at anything —
    the body runs to the continuation holding the inputs' as they were and the output's with those pieces written.
    The conditional is decided by `hc0`; the pieces are what the run itself finds. -/
noncomputable def kernelRun2_A (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) :
    { L3 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_kernel i arg2 harg2 arg3 harg3 arg4 harg4 arg5 harg5) K } := by
  refine ⟨?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- THE ACCUMULATING CASE (inner coordinate not 0). The same, the output's staging memref entering at its running
    contents `xo3` (the body reads it before it covers it). -/
noncomputable def kernelRun2_B (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) :
    { L3 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_kernel i arg2 harg2 arg3 harg3 arg4 harg4 arg5 harg5) K } := by
  refine ⟨?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What each case leaves in the output's staging buffer -/

/-- The reset case's pieces tile the output block, so they cover it. -/
theorem cover2_A_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) (y : S2048x1024.Idx) :
    ∃ pc ∈ (kernelRun2_A c i arg2 harg2 arg3 harg3 arg4 harg4 arg5 harg5 hc0 x0 x1 x2).1, y ∈ pc.1.set :=
  View.cover_of_tiledL (kernelRun2_A c i arg2 harg2 arg3 harg3 arg4 harg4 arg5 harg5 hc0 x0 x1 x2).1 S2048x1024.size (by sl_kernel_rfl) y

/-- What the reset case leaves in the output's staging buffer: its pieces read back (they cover, so over anything). -/
def out2_A_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) : Vec F S2048x1024 .f32 :=
  VO2_3.read (Elt F) (VO2_3.writes (Elt F) VO2_3.junk (kernelRun2_A c i arg2 harg2 arg3 harg3 arg4 harg4 arg5 harg5 hc0 x0 x1 x2).1)

/-- The accumulating case's pieces tile the output block, so they cover it. -/
theorem cover2_B_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) (y : S2048x1024.Idx) :
    ∃ pc ∈ (kernelRun2_B c i arg2 harg2 arg3 harg3 arg4 harg4 arg5 harg5 hc0 x0 x1 x2 xo3).1, y ∈ pc.1.set :=
  View.cover_of_tiledL (kernelRun2_B c i arg2 harg2 arg3 harg3 arg4 harg4 arg5 harg5 hc0 x0 x1 x2 xo3).1 S2048x1024.size (by sl_kernel_rfl) y

/-- What the accumulating case leaves in the output's staging buffer. -/
def out2_B_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) : Vec F S2048x1024 .f32 :=
  VO2_3.read (Elt F) (VO2_3.writes (Elt F) VO2_3.junk (kernelRun2_B c i arg2 harg2 arg3 harg3 arg4 harg4 arg5 harg5 hc0 x0 x1 x2 xo3).1)

/-! ## What the output's staging buffer holds after each point -/

/-- THE ACCUMULATION. What the output's staging buffer holds after the body at position `n`: at the first of every 32
    points the reset case's contents; elsewhere the accumulating case's, run over what this leaves at `n - 1` (the buffer
    is neither switched nor written back in between). -/
def outsAt2 (c : Dev nD) : (n : ℕ) → n < cfg2.N → Vec F S2048x1024 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 32 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_0 ⟨n + 1, hn⟩).mp h)) (iblk2 V c 0 ⟨n + 1, hn⟩) (iblk2 V c 1 ⟨n + 1, hn⟩) (iblk2 V c 2 ⟨n + 1, hn⟩)
        (outsAt2 c n (Nat.lt_of_succ_lt hn))

/-- `outsAt2` at a reset point: that case's contents. -/
theorem outsAt2_A (c : Dev nD) (t : Fin cfg2.N) (h0 : t.val % 32 = 0) :
    outsAt2 V c t.val t.isLt = out2_A_3 c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t) (iblk2 V c 2 t) := by
  obtain ⟨n, hn⟩ := t
  cases n with
  | zero => exact rfl
  | succ n => exact (dif_pos h0).trans rfl

/-- `outsAt2` at an accumulating point: that case's contents, over what the point before left. -/
theorem outsAt2_B (c : Dev nD) (t : Fin cfg2.N) (h0 : ¬t.val % 32 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each input's buffer at its block and the output's at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At an accumulating point the output's current staging buffer holds what the body left at the point before: the
    point is not the first, and the buffer was not written back in between (write-backs follow inner coordinate 31
    only); the window is never idle and uncut. -/
theorem before2_3_B (c : Dev nD) (t : Fin cfg2.N) (h0 : ¬t.val % 32 = 0) (d) :
    (dat2 V c).before 3 t d = outsAt2 V c (t.val - 1) (Nat.lt_of_le_of_lt (Nat.sub_le _ _) t.isLt) := by
  have hN : t.val < 128 := lt_of_lt_of_eq t.isLt (show cfg2.N = 128 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' memrefs hold their blocks; the closed form of the condition says which case the
    point is in; at an accumulating point the output's memref holds what the point before left; so that case's run
    applies. The invariant passes through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 128 := lt_of_lt_of_eq t.isLt (show cfg2.N = 128 from N_2)
  by_cases h0 : t.val % 32 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as a chain of four steps — the cast of h to the narrow format on the host, then the three passes —
  and what every buffer holds between consecutive steps.

  Between two steps the core's buffers are described by one valuation: at launch the memory m; after the host cast,
  the same with the cast array written; after each pass, the same with that pass's arrays at what its pipeline
  leaves (an input array as it was, the output array its written-back blocks folded in). No step writes an argument
  array, so the last valuation still has the three arguments as launched, and it has the result array at what the
  third pass's pipeline leaves. The launch theorem for a chain of segments then says: every weakly fair execution
  terminates, nothing faults, and the final memory agrees with the last valuation on every unscoped buffer.
-/
import proofs.«125493_j42185168781604_2_alg».proof.Proof.Gen.Kernel.Launch
import proofs.«125493_j42185168781604_2_alg».proof.Proof.Gen.Kernel.Skeleton
import proofs.«125493_j42185168781604_2_alg».proof.Proof.Gen.Kernel.Points
import proofs.«125493_j42185168781604_2_alg».proof.Proof.KRegion0
import proofs.«125493_j42185168781604_2_alg».proof.Proof.KRegion1
import proofs.«125493_j42185168781604_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between steps -/

/-- At launch. -/
abbrev W0 : Dev nD → Valuation τ sig (Elt F) := fun c b => (s₀ m ρ).mem ((c : Dev nD), b)
/-- After the host cast. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pass 0: its arrays at what the pipeline leaves (an input as entered, the output its write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After pass 1: its arrays at what the pipeline leaves (an input as entered, the output its write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After pass 2: its arrays at what the pipeline leaves (an input as entered, the output its write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No step writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The passes' per-point facts, together, and what rides along -/

/-- No pass reads a table fetched ahead of the grid. -/
abbrev adm : (p : Fin 3) → (pcfgs (F := F) p).Adm := fun p => (cfgs p).toPCfg_adm
/-- Each pass's per-point facts at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers, through every step: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The host cast allocates no buffer. -/
theorem castOps_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debt: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- Pass 0 as a segment of the program: entered with every unscoped buffer at W1, left with them at W2. Its
    arrays are split out of the unscoped buffers on entry and put back at their final contents on exit; the generator
    register goes into the pass's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the program: entered with every unscoped buffer at W2, left with them at W3. Its
    arrays are split out of the unscoped buffers on entry and put back at their final contents on exit; the generator
    register goes into the pass's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (Phi1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    refine (Phi1_out (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the program: entered with every unscoped buffer at W3, left with them at W4. Its
    arrays are split out of the unscoped buffers on entry and put back at their final contents on exit; the generator
    register goes into the pass's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub castOps_fresh (W0 m ρ)),
    .region (reg0 m ρ),
    .region (reg1 m ρ),
    .region (reg2 m ρ) ]
/-- The program is the run of its four segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing faults,
    and the final memory holds the result array at what the third pass's pipeline leaves and each argument as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel.Hand

end
-- ==== Proof.Region0.lean ====
/-
  The first pass of the kernel, y·W, one block of 1024 rows of y per grid point against the whole of W.

  At point t the pass is handed rows 1024·t … 1024·t + 1023 of y and all of W (W's index map is constant, so it is
  brought in once and stays), and leaves in its output block the product of the two, which the pipeline writes back
  to rows 1024·t … of the result. The body reads its two inputs whole, stores the output block whole, and keeps
  nothing from one point to the next, so what it leaves at a point is a function of that point's two input blocks
  alone. This module states that function, proves the body computes it on any three whole buffers, and packages the
  per-point facts the pipeline's launch theorem asks for, at an arbitrary state V of the buffers on entry.
-/
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pass is handed -/

/-- Block of window w at point t, read off the array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of y: the staging buffer in use at a point holds that point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- All of W: brought in at the first point, found in place at every later one (its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 1024-by-1024 block: the one rectangle every access of the body goes through. -/
abbrev whole0 : Rect S1024x1024 := Rect.unit (s := S1024x1024) ![0, 0] S1024x1024.size inb_S1024x1024_S1024x1024_0_0

/-- The output block after the body: its single store, the product of the two input blocks. -/
def ywBlock (x0 x1 : Vec F S1024x1024 .f32) : Vec F S1024x1024 .bf16 :=
  View.canon [⟨whole0, k0_pay1 (View.ld x0 whole0) (View.ld x1 whole0)⟩]

/-- That one store covers the block. -/
theorem ywCover (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body on three whole buffers -/

set_option maxHeartbeats 1000000 in
/-- On whole buffers holding x0 and x1 and anything in the third, the body runs to the end, leaves the first two as
    they were and the third at the product block. -/
theorem sound_kernel0 (c : Dev nD) (E : Set ℕ) (i : grid0.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (ywBlock x0 x1)) -∗ K ⟨⟩))
      ⊢ wp frame (wpE (defs₀ (F := F)) Variants.none c none) E (cc0__yw_kernel i arg1 harg1 arg2 harg2 arg3 harg3) K := by
  simp only [cc0__yw_kernel_eq_skeleton]; unfold cc0__yw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ywCover _)

/-! ## The per-point facts of the pass -/

/-- What each buffer holds after the body at each point: the inputs their blocks, the output the product block;
    nothing else of the core is touched, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => ywBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = ywBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the run above applies; the rest of the core's
    state passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Kernel.lean ====
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the per-row online log-sum-exp (grid 4 × 16), at the entry contents `V`

The body keeps a running maximum and a running sum in two scratch buffers carried from one grid point to the
next; at the first of every sixteen points it resets them, at the last it stores the output block. -/

theorem hz2 : (![0, 0] : Fin 2 → Nat) = fun _ => 0 := funext fun a => by fin_cases a <;> rfl

/-- A whole-shape store made last leaves its payload, whatever lay under it. -/
theorem read_writes_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's two conditionals -/

/-- The first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the first of every sixteen points. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional (the output store). -/
abbrev cond1_1 (i : grid1.Coords) : Prop := k1_cond2 i = 1#1
/-- It holds at the last of every sixteen points. -/
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly off the last of every sixteen points. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One step of the recurrence -/

/-- The running maximum after a point, from the two input blocks and the maximum before it. -/
abbrev stepM (x0 : Vec F S512x1024 .bf16) (x1 : Vec F S2048x1024 .bf16) (m : Vec F S2048x1 .f32) : Vec F S2048x1 .f32 :=
  k1_pay6 x1 x0 m
/-- The running sum after a point, from the two input blocks and the maximum and sum before it. -/
abbrev stepL (x0 : Vec F S512x1024 .bf16) (x1 : Vec F S2048x1024 .bf16) (m l : Vec F S2048x1 .f32) : Vec F S2048x1 .f32 :=
  k1_pay5 x1 x0 m m l

/-! ## The body's triple, case by case -/

set_option maxHeartbeats 2000000 in
/-- A middle point: neither conditional taken. The scratch pair moves one step; the output buffer is untouched. -/
theorem sound_kernel1_mid (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : ¬cond1_0 i) (hc1 : ¬cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare y
            ∗ owns (c : Thread nD τ) arg5 fullShare (stepM x0 x1 m) ∗ owns (c : Thread nD τ) arg6 fullShare (stepL x0 x1 m l)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_last _ _ hz2 _ _ _).trans ?_
    simp only [View.readAt_eq_ld, View.ld_unit_zero (S := S2048x1024) hz2, View.ld_unit_zero (S := S512x1024) hz2, View.ld_unit_zero (S := S2048x1) hz2]
  · iexists _; isplitr
    swap; · iexact HS1
    ipureintro
    refine (read_writes_last _ _ hz2 _ _ _).trans ?_
    simp only [View.readAt_eq_ld, View.ld_unit_zero (S := S2048x1024) hz2, View.ld_unit_zero (S := S512x1024) hz2, View.ld_unit_zero (S := S2048x1) hz2]

set_option maxHeartbeats 2000000 in
/-- The first of sixteen points: the reset taken, the output store not. Whatever the scratch pair held, it ends one step from the reset values; the output buffer is untouched. -/
theorem sound_kernel1_first (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : cond1_0 i) (hc1 : ¬cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare y
            ∗ owns (c : Thread nD τ) arg5 fullShare (stepM x0 x1 (k1_pay1 (F := F))) ∗ owns (c : Thread nD τ) arg6 fullShare (stepL x0 x1 (k1_pay1 (F := F)) (k1_pay2 (F := F)))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]
  · iexists _; isplitr
    swap; · iexact HS1
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]

set_option maxHeartbeats 2000000 in
/-- The last of sixteen points: the reset not taken, the output store taken. The scratch pair moves one step and the output buffer, whatever it held, ends at the maximum plus the logarithm of the sum, as a row. -/
theorem sound_kernel1_last (c : Dev nD) (E : Set ℕ) (i : grid1.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S2048x1 .f32) (harg5 : arg5.IsWhole)
    (arg6 : Memref sig .tc .vmem S2048x1 .f32) (harg6 : arg6.IsWhole)
    (hc0 : ¬cond1_0 i) (hc1 : cond1_1 i)
    (x0 : Vec F S512x1024 .bf16) (x1 : Vec F S2048x1024 .bf16) (y : Vec F S1x2048 .f32) (m l : Vec F S2048x1 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare m ∗ owns (c : Thread nD τ) arg6 fullShare l
        ∗ (iprop(owns (c : Thread nD τ) arg2 fullShare x0 ∗ owns (c : Thread nD τ) arg3 fullShare x1 ∗ owns (c : Thread nD τ) arg4 fullShare (k1_pay7 (stepM x0 x1 m) (stepL x0 x1 m l))
            ∗ owns (c : Thread nD τ) arg5 fullShare (stepM x0 x1 m) ∗ owns (c : Thread nD τ) arg6 fullShare (stepL x0 x1 m l)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2, View.readCov_unit_zero (S := S2048x1) _ hz2]
  isplitl [HS0]
  · iexists _; isplitr
    swap; · iexact HS0
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2]
  · iexists _; isplitr
    swap; · iexact HS1
    ipureintro
    sl_unfold_words
    refine (read_writes_last _ _ hz2 _ _ _).trans ?_
    simp only [View.readAt_eq_ld, View.ld_unit_zero (S := S2048x1024) hz2, View.ld_unit_zero (S := S512x1024) hz2, View.ld_unit_zero (S := S2048x1) hz2]

end Cert.KernelIdeal.Hand
end
-- ==== Proof.Region1.lean ====
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«125493_j42185168781604_2_alg».proof.Proof.Region1Kernel

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 at the entry contents `V`: the proof data, the invariant and the body obligation -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's likewise: fetched at the first of every sixteen points, its block index unmoved between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch pair, point by point -/

/-- The two scratch operands: whole scoped buffers of the kernel's own. -/
abbrev scM1_0 : Memref sig .tc .vmem S2048x1 .f32 := Memref.whole cc1_scratch0
abbrev scM1_1 : Memref sig .tc .vmem S2048x1 .f32 := Memref.whole cc1_scratch1

/-- The scratch pair (running maximum, running sum) BEFORE point `n`. Before the first point the pair is
    whatever the region finds — the value given here for `n = 0` is a placeholder nothing consults, since the body at
    a point `n` with `n % 16 = 0` overwrites both with the reset values before reading them. After point `n`: one
    step of the recurrence from the reset values if `n % 16 = 0`, from the pair before point `n` otherwise. -/
def scrAt (c : Dev nD) : (n : ℕ) → n ≤ cfg1.N → Vec F S2048x1 .f32 × Vec F S2048x1 .f32
  | 0, _ => (k1_pay1 (F := F), k1_pay2 (F := F))
  | n + 1, hn =>
    if n % 16 = 0 then
      (stepM (iblk1 V c 0 ⟨n, hn⟩) (iblk1 V c 1 ⟨n, hn⟩) (k1_pay1 (F := F)),
        stepL (iblk1 V c 0 ⟨n, hn⟩) (iblk1 V c 1 ⟨n, hn⟩) (k1_pay1 (F := F)) (k1_pay2 (F := F)))
    else
      (stepM (iblk1 V c 0 ⟨n, hn⟩) (iblk1 V c 1 ⟨n, hn⟩) (scrAt c n (Nat.le_of_succ_le hn)).1,
        stepL (iblk1 V c 0 ⟨n, hn⟩) (iblk1 V c 1 ⟨n, hn⟩) (scrAt c n (Nat.le_of_succ_le hn)).1 (scrAt c n (Nat.le_of_succ_le hn)).2)

/-- After a point that resets. -/
theorem scrAt_succ_reset (c : Dev nD) (n : ℕ) (hn : n + 1 ≤ cfg1.N) (h : n % 16 = 0) :
    scrAt V c (n + 1) hn = (stepM (iblk1 V c 0 ⟨n, hn⟩) (iblk1 V c 1 ⟨n, hn⟩) (k1_pay1 (F := F)),
        stepL (iblk1 V c 0 ⟨n, hn⟩) (iblk1 V c 1 ⟨n, hn⟩) (k1_pay1 (F := F)) (k1_pay2 (F := F))) := by
  rw [scrAt]; exact if_pos h

/-- After a point that does not. -/
theorem scrAt_succ_step (c : Dev nD) (n : ℕ) (hn : n + 1 ≤ cfg1.N) (h : ¬n % 16 = 0) :
    scrAt V c (n + 1) hn = (stepM (iblk1 V c 0 ⟨n, hn⟩) (iblk1 V c 1 ⟨n, hn⟩) (scrAt V c n (Nat.le_of_succ_le hn)).1,
        stepL (iblk1 V c 0 ⟨n, hn⟩) (iblk1 V c 1 ⟨n, hn⟩) (scrAt V c n (Nat.le_of_succ_le hn)).1 (scrAt V c n (Nat.le_of_succ_le hn)).2) := by
  rw [scrAt]; exact if_neg h

/-- The running maximum before point `t` (after point `t - 1`). -/
def mAt (c : Dev nD) (t : Fin (cfg1.N + 1)) : Vec F S2048x1 .f32 := (scrAt V c t.val (Nat.le_of_lt_succ t.isLt)).1
/-- The running sum before point `t` (after point `t - 1`). -/
def lAt (c : Dev nD) (t : Fin (cfg1.N + 1)) : Vec F S2048x1 .f32 := (scrAt V c t.val (Nat.le_of_lt_succ t.isLt)).2

/-! ## The invariant -/

/-- The core's scoped buffers that are neither a staging buffer of this region nor one of its two scratch operands,
    each whole at some contents. -/
def restSc (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The scoped rest with the two scratch operands set apart, as memrefs owned at some contents. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ (∃ d, owns (c : Thread nD τ) scM1_1 fullShare d) ∗ restSc (F := F) c) := by
  rw [scopedRest1_eq]; unfold restSc; simp only [scM1_0, scM1_1, owns_whole]
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) : sProp 𝕄) ⊢ iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) := by
    iintro ⟨A0, A1, A2, A3, A4, S0, S1, B0, B1, B2, B3, B4, B5, B6, B7⟩
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  have h₂ : (iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) := by
    iintro ⟨S0, S1, A0, A1, A2, A3, A4, B0, B1, B2, B3, B4, B5, B6, B7⟩
    isplitl [A0]; · iexact A0
    isplitl [A1]; · iexact A1
    isplitl [A2]; · iexact A2
    isplitl [A3]; · iexact A3
    isplitl [A4]; · iexact A4
    isplitl [S0]; · iexact S0
    isplitl [S1]; · iexact S1
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  exact BI.equiv_iff.mp ⟨h₁, h₂⟩

/-- The region invariant before position `n`: the two scratch operands at a pair that, after the first point, is
    the recurrence's (`scrAt`) and before it is whatever the region found; the other scoped buffers at anything; the
    generator register at some state. -/
def Phi1 (c : Dev nD) (n : ℕ) (hn : n ≤ cfg1.N) : sProp 𝕄 :=
  iprop(∃ m l, ⌜n ≠ 0 → m = (scrAt V c n hn).1 ∧ l = (scrAt V c n hn).2⌝ ∗ owns (c : Thread nD τ) scM1_0 fullShare m
    ∗ owns (c : Thread nD τ) scM1_1 fullShare l ∗ restSc (F := F) c ∗ (∃ r, prngReg c r))

/-! ## The pipeline's proof data -/

/-- The proof data of pipeline 1 on core `c`: the arrays as the region finds them (`V`); after the body at point
    `t` each input's buffer at its block, the output's at the maximum plus the logarithm of the sum after the point, as
    a row (consulted only where the body stores it: the last of every sixteen points); the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay7 (mAt V c t.succ) (lAt V c t.succ)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay7 (mAt V c t.succ) (lAt V c t.succ) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region — the generator register and the scoped rest — is the invariant before the
    first point: the scratch pair is whatever is found. -/
theorem Phi1_in (c : Dev nD) :
    iprop((∃ r, prngReg c r) ∗ Pipeline.scopedRest (Ix := Unit) (Name := ℕ) (U := UR sig nD τ) (Lvl := ℕ) spec1 c) ⊢ ((dat1 (F := F) V c).Φ 0 : sProp 𝕄) := by
  rw [show (dat1 V c).Φ 0 = Phi1 V c 0 (Nat.zero_le _) from rfl, scopedRest1_split]; unfold Phi1
  iintro ⟨Hg, ⟨%m, HS0⟩, ⟨%l, HS1⟩, HR⟩
  iexists m, l; isplitr; · ipureintro; intro h; exact absurd rfl h
  isplitl [HS0]; · iexact HS0
  isplitl [HS1]; · iexact HS1
  isplitl [HR]; · iexact HR
  iexact Hg

/-- After the last point the invariant gives them back: the scratch pair's named contents are forgotten. -/
theorem Phi1_out (c : Dev nD) :
    ((dat1 (F := F) V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = Phi1 V c cfg1.N (Nat.le_refl _) from rfl, scopedRest1_split]; unfold Phi1
  iintro ⟨%m, %l, -, HS0, HS1, HR, Hg⟩
  isplitl [Hg]; · iexact Hg
  isplitl [HS0]; · iexists m; iexact HS0
  isplitl [HS1]; · iexists l; iexact HS1
  iexact HR

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the point's position among its sixteen says which
    control case it is in; the invariant hands the body the scratch pair (at the recurrence's value after the first
    point, at anything before it, where the reset overwrites it) and takes it back one step on; at the last of
    sixteen the output buffer is stored whole, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl,
    show (dat1 V c).Φ t.castSucc = Phi1 V c t.val (Nat.le_of_lt t.isLt) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  unfold Phi1
  by_cases h0 : t.val % 16 = 0
  · have h1 : ¬t.val % 16 = 15 := by omega
    have hc1 : ¬cond1_1 (grid1.coords t) := fun h => h1 ((hcond1_1 t).mp h)
    rw [Dat.leavesExact_idle (dat1 V c) 2 t (idleAt1_2 t hc1) (noFlush1_2 t hc1)]
    iintro ⟨⟨%m, %l, -, HS0, HS1, HR, Hg⟩, Ho, ⟨%d0, H0⟩, ⟨%d1, H1⟩, ⟨%d2, H2⟩⟩
    iapply (sound_kernel1_first c Set.univ (grid1.coords t) _ _ _ _ _ _ _ _ _ _ ((hcond1_0 t).mpr h0) hc1 (iblk1 V c 0 t) (iblk1 V c 1 t) _ m l _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · iexists _, _; isplitr
      · ipureintro; intro _
        rw [scrAt_succ_reset V c t.val t.isLt h0]; exact ⟨rfl, rfl⟩
      isplitl [HS0]; · iexact HS0
      isplitl [HS1]; · iexact HS1
      isplitl [HR]; · iexact HR
      iexact Hg
    isplitl [Ho]; · iexact Ho
    isplitl [H0]; · iexact H0
    isplitl [H1]; · iexact H1
    iexists _; iexact H2
  · have hz : t.val ≠ 0 := fun h => h0 (by rw [h])
    have hc0 : ¬cond1_0 (grid1.coords t) := fun h => h0 ((hcond1_0 t).mp h)
    by_cases h1 : t.val % 16 = 15
    · rw [show (dat1 V c).leavesExact 2 t = owns (c : Thread nD τ) (st1_2 t) fullShare ((dat1 V c).after 2 t) from by
        unfold Dat.leavesExact; rw [liveAt1_2 t ((hcond1_1 t).mpr h1)], after1_2]
      rw [show mAt V c t.succ = (scrAt V c (t.val + 1) t.isLt).1 from rfl, show lAt V c t.succ = (scrAt V c (t.val + 1) t.isLt).2 from rfl,
        scrAt_succ_step V c t.val t.isLt h0]
      iintro ⟨⟨%m, %l, %hml, HS0, HS1, HR, Hg⟩, Ho, ⟨%d0, H0⟩, ⟨%d1, H1⟩, ⟨%d2, H2⟩⟩
      obtain ⟨rfl, rfl⟩ := hml hz
      iapply (sound_kernel1_last c Set.univ (grid1.coords t) _ _ _ _ _ _ _ _ _ _ hc0 ((hcond1_1 t).mpr h1) (iblk1 V c 0 t) (iblk1 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · iexists _, _; isplitr
        · ipureintro; intro _
          exact ⟨rfl, rfl⟩
        isplitl [HS0]; · iexact HS0
        isplitl [HS1]; · iexact HS1
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨%m, %l, %hml, HS0, HS1, HR, Hg⟩, Ho, ⟨%d0, H0⟩, ⟨%d1, H1⟩, ⟨%d2, H2⟩⟩
      obtain ⟨rfl, rfl⟩ := hml hz
      iapply (sound_kernel1_mid c Set.univ (grid1.coords t) _ _ _ _ _ _ _ _ _ _ hc0 hc1 (iblk1 V c 0 t) (iblk1 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · iexists _, _; isplitr
        · ipureintro; intro _
          rw [scrAt_succ_step V c t.val t.isLt h0]; exact ⟨rfl, rfl⟩
        isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.Region2.lean ====
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the output pass

The third pallas_call walks a grid of 4 × 32 points. At point (i0, i1) it reads row block i0 of the
projected queries (2048 rows), row block i1 of the keys (256 rows) and the matching 256 entries of
the log-sum-exp row, and adds exp(s - lse) · h to the 2048 × 1024 output block i0, which stays in
its staging buffer over the 32 inner points: at i1 = 0 the body first overwrites the buffer with
zeros, at every point it stores buffer + contribution, and the block is written back after i1 = 31.

This file states what every staging buffer holds after the body at every point (for the output, by
recursion on the point), shows that the body run on those contents leaves them so, and bundles the
result as the pipeline's proof data and its body obligation, generic in the float type.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved), for any proof data whose array is `V`'s and whose body leaves the block
    in place. The three inputs are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the reset), from the grid coordinates: the inner coordinate is 0. -/
abbrev cond2_0 (i : grid2.Coords) : Prop := (Scalar.cmpi .ne (Scalar.extui (Scalar.cmpi .eq (BitVec.ofNat 32 (i 1).val) 0#32)) 0#32) = 1#1
/-- It holds exactly at the first of every 32 consecutive points — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- One staging buffer of the output window, through which its contents are stated (the choice does not matter:
    covering writes read back the same through any whole view). -/
abbrev VO2_3 : View sig .tc .vmem S2048x1024 .f32 := (Memref.whole cc2_stg3_0 : Memref sig .tc .vmem S2048x1024 .f32).view
/-- Each window's current staging memref at point `t`, as the pipeline passes it to the body, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)

/-! ## The body's run, case by case -/

set_option maxHeartbeats 1000000 in
/-- THE RESET CASE (inner coordinate 0). What the body's stores leave in the output's staging memref, as pieces (last
    first), with the proof that on whole staging memrefs — the inputs' at their contents, the output's at anything —
    the body runs to the continuation holding the inputs' as they were and the output's with those pieces written.
    The conditional is decided by `hc0`; the pieces are what the run itself finds. -/
noncomputable def kernelRun2_A (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) :
    { L3 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_kernel i arg2 harg2 arg3 harg3 arg4 harg4 arg5 harg5) K } := by
  refine ⟨?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- THE ACCUMULATING CASE (inner coordinate not 0). The same, the output's staging memref entering at its running
    contents `xo3` (the body reads it before it covers it). -/
noncomputable def kernelRun2_B (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) :
    { L3 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_kernel i arg2 harg2 arg3 harg3 arg4 harg4 arg5 harg5) K } := by
  refine ⟨?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What each case leaves in the output's staging buffer -/

/-- The reset case's pieces tile the output block, so they cover it. -/
theorem cover2_A_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) (y : S2048x1024.Idx) :
    ∃ pc ∈ (kernelRun2_A c i arg2 harg2 arg3 harg3 arg4 harg4 arg5 harg5 hc0 x0 x1 x2).1, y ∈ pc.1.set :=
  View.cover_of_tiledL (kernelRun2_A c i arg2 harg2 arg3 harg3 arg4 harg4 arg5 harg5 hc0 x0 x1 x2).1 S2048x1024.size (by sl_kernel_rfl) y

/-- What the reset case leaves in the output's staging buffer: its pieces read back (they cover, so over anything). -/
def out2_A_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) : Vec F S2048x1024 .f32 :=
  VO2_3.read (Elt F) (VO2_3.writes (Elt F) VO2_3.junk (kernelRun2_A c i arg2 harg2 arg3 harg3 arg4 harg4 arg5 harg5 hc0 x0 x1 x2).1)

/-- The accumulating case's pieces tile the output block, so they cover it. -/
theorem cover2_B_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) (y : S2048x1024.Idx) :
    ∃ pc ∈ (kernelRun2_B c i arg2 harg2 arg3 harg3 arg4 harg4 arg5 harg5 hc0 x0 x1 x2 xo3).1, y ∈ pc.1.set :=
  View.cover_of_tiledL (kernelRun2_B c i arg2 harg2 arg3 harg3 arg4 harg4 arg5 harg5 hc0 x0 x1 x2 xo3).1 S2048x1024.size (by sl_kernel_rfl) y

/-- What the accumulating case leaves in the output's staging buffer. -/
def out2_B_3 (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) : Vec F S2048x1024 .f32 :=
  VO2_3.read (Elt F) (VO2_3.writes (Elt F) VO2_3.junk (kernelRun2_B c i arg2 harg2 arg3 harg3 arg4 harg4 arg5 harg5 hc0 x0 x1 x2 xo3).1)

/-! ## What the output's staging buffer holds after each point -/

/-- THE ACCUMULATION. What the output's staging buffer holds after the body at position `n`: at the first of every 32
    points the reset case's contents; elsewhere the accumulating case's, run over what this leaves at `n - 1` (the buffer
    is neither switched nor written back in between). -/
def outsAt2 (c : Dev nD) : (n : ℕ) → n < cfg2.N → Vec F S2048x1024 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 32 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_0 ⟨n + 1, hn⟩).mpr h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_0 ⟨n + 1, hn⟩).mp h)) (iblk2 V c 0 ⟨n + 1, hn⟩) (iblk2 V c 1 ⟨n + 1, hn⟩) (iblk2 V c 2 ⟨n + 1, hn⟩)
        (outsAt2 c n (Nat.lt_of_succ_lt hn))

/-- `outsAt2` at a reset point: that case's contents. -/
theorem outsAt2_A (c : Dev nD) (t : Fin cfg2.N) (h0 : t.val % 32 = 0) :
    outsAt2 V c t.val t.isLt = out2_A_3 c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t) (iblk2 V c 2 t) := by
  obtain ⟨n, hn⟩ := t
  cases n with
  | zero => exact rfl
  | succ n => exact (dif_pos h0).trans rfl

/-- `outsAt2` at an accumulating point: that case's contents, over what the point before left. -/
theorem outsAt2_B (c : Dev nD) (t : Fin cfg2.N) (h0 : ¬t.val % 32 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each input's buffer at its block and the output's at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At an accumulating point the output's current staging buffer holds what the body left at the point before: the
    point is not the first, and the buffer was not written back in between (write-backs follow inner coordinate 31
    only); the window is never idle and uncut. -/
theorem before2_3_B (c : Dev nD) (t : Fin cfg2.N) (h0 : ¬t.val % 32 = 0) (d) :
    (dat2 V c).before 3 t d = outsAt2 V c (t.val - 1) (Nat.lt_of_le_of_lt (Nat.sub_le _ _) t.isLt) := by
  have hN : t.val < 128 := lt_of_lt_of_eq t.isLt (show cfg2.N = 128 from N_2)
  rw [Dat.before_out_kept _ 3 rfl t (by omega) (Bool.eq_false_iff.mpr fun h => by have := (flush2_3 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
/-- The body at any point: the inputs' memrefs hold their blocks; the closed form of the condition says which case the
    point is in; at an accumulating point the output's memref holds what the point before left; so that case's run
    applies. The invariant passes through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 128 := lt_of_lt_of_eq t.isLt (show cfg2.N = 128 from N_2)
  by_cases h0 : t.val % 32 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The whole program as a chain of four steps — the cast of h to the narrow format on the host, then the three passes —
  and what every buffer holds between consecutive steps.

  Between two steps the core's buffers are described by one valuation: at launch the memory m; after the host cast,
  the same with the cast array written; after each pass, the same with that pass's arrays at what its pipeline
  leaves (an input array as it was, the output array its written-back blocks folded in). No step writes an argument
  array, so the last valuation still has the three arguments as launched, and it has the result array at what the
  third pass's pipeline leaves. The launch theorem for a chain of segments then says: every weakly fair execution
  terminates, nothing faults, and the final memory agrees with the last valuation on every unscoped buffer.
-/
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import proofs.«125493_j42185168781604_2_alg».proof.Proof.Region0
import proofs.«125493_j42185168781604_2_alg».proof.Proof.Region1
import proofs.«125493_j42185168781604_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between steps -/

/-- At launch. -/
abbrev W0 : Dev nD → Valuation τ sig (Elt F) := fun c b => (s₀ m ρ).mem ((c : Dev nD), b)
/-- After the host cast. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pass 0: its arrays at what the pipeline leaves (an input as entered, the output its write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After pass 1: its arrays at what the pipeline leaves (an input as entered, the output its write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After pass 2: its arrays at what the pipeline leaves (an input as entered, the output its write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No step writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The passes' per-point facts, together, and what rides along -/

/-- No pass reads a table fetched ahead of the grid. -/
abbrev adm : (p : Fin 3) → (pcfgs (F := F) p).Adm := fun p => (cfgs p).toPCfg_adm
/-- Each pass's per-point facts at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers, through every step: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The host cast allocates no buffer. -/
theorem castOps_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debt: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- Pass 0 as a segment of the program: entered with every unscoped buffer at W1, left with them at W2. Its
    arrays are split out of the unscoped buffers on entry and put back at their final contents on exit; the generator
    register goes into the pass's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the program: entered with every unscoped buffer at W2, left with them at W3. Its
    arrays are split out of the unscoped buffers on entry and put back at their final contents on exit; the generator
    register goes into the pass's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (Phi1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    refine (Phi1_out (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the program: entered with every unscoped buffer at W3, left with them at W4. Its
    arrays are split out of the unscoped buffers on entry and put back at their final contents on exit; the generator
    register goes into the pass's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub castOps_fresh (W0 m ρ)),
    .region (reg0 m ρ),
    .region (reg1 m ρ),
    .region (reg2 m ρ) ]
/-- The program is the run of its four segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing faults,
    and the final memory holds the result array at what the third pass's pipeline leaves and each argument as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Hand

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«125493_j42185168781604_2_alg».proof.Proof.LibMatmul
import proofs.«125493_j42185168781604_2_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.Value0.lean ====
/-
  What the first pass leaves in its result array: the matrix product y·W, entry by entry, on the extended reals.

  Entry (n, k) of the result is the sum over d of y(n, d) · W(d, k). The pass computes it 1024 rows at a time: at
  point t its body multiplies rows 1024·t … 1024·t + 1023 of y by all of W, and the pipeline writes the product back
  to the same rows of the result. Roundings to the narrower format are the identity on the extended reals, so the block
  the body stores is exactly the product; each block written back is the restriction of one whole-array function to
  that block's rows; and the eight blocks cover the array, so the array ends holding that function.
-/
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import proofs.«125493_j42185168781604_2_alg».proof.Proof.Region0
import proofs.«125493_j42185168781604_2_alg».proof.Proof.LibStdMatmul
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-- A buffer's contents, typed as a function into the extended reals (every element format is the extended reals here). -/
abbrev asE {S : Shape} (f : S.Idx → EReal) : S.Idx → EReal := f

theorem origin2 : (![0, 0] : Fin 2 → Nat) = fun _ => 0 := funext fun a => by fin_cases a <;> rfl

/-- The product of an 8192-by-1024 array with a 1024-by-1024 array, entry by entry. -/
def ywG (a0 : S8192x1024.Idx → EReal) (a2 : S1024x1024.Idx → EReal) : S8192x1024.Idx → EReal :=
  fun i => ∑ d : Fin 1024, a0 (ix2 (n0 := 8192) (n1 := 1024) (i 0) d) * a2 (ix2 (n0 := 1024) (n1 := 1024) d (i 1))

/-- The block the body stores, read at (p, q): row p of the first block times column q of the second. -/
theorem ywPay_apply (x0 x1 : Vec Ideal S1024x1024 .f32) (p q : Fin 1024) :
    k0_pay1 (F := Ideal) x0 x1 (ix2 p q) = ∑ d : Fin 1024, x0 (ix2 p d) * x1 (ix2 d q) :=
  Cert.Lib.StdMatmul.matmul_std_ix2 dot_S1024x1024_S1024x1024_S1024x1024_1_0_0_1_n_n none rfl rfl rfl rfl rfl rfl _ _ p q

/-- Where each window's block sits at point t: the rows of y and of the result move together, W's block and every
    column index stay at 0. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the arrays as the pass finds them. -/
theorem ywFlushed_eq (c : Dev nD) (t : Fin cfg0.N) :
    (dat0 (F := Ideal) V c).flushed 2 t = ((cfg0.win 2).blk t).view.read (Elt Ideal) (ywG (V c main_arg0) (V c main_arg2)) := by
  show (cfg0.win 2).cut (grid0.coords t) ((dat0 V c).after 2 t) = _
  rw [after0_2]
  unfold ywBlock
  rw [View.canon_unit_zero origin2]
  simp only [View.ld_unit_zero (S := S1024x1024) origin2]
  obtain ⟨e0, e1, e2, e3, e4, e5⟩ := idx_facts0 t
  funext j
  obtain ⟨p, q, rfl⟩ : ∃ (p : Fin 1024) (q : Fin 1024), j = ix2 p q := ⟨j 0, j 1, eq_ix2 j⟩
  show k0_pay1 (F := Ideal) (iblk0 V c 0 t) (iblk0 V c 1 t) (ix2 p q) = ywG (V c main_arg0) (V c main_arg2) (((cfg0.win 2).blk t).view.emb (ix2 p q))
  rw [ywPay_apply]
  unfold ywG
  refine Finset.sum_congr rfl fun d _ => ?_
  show asE (S := S8192x1024) (V c main_arg0) (((cfg0.win 0).blk t).view.emb (ix2 p d)) * asE (S := S1024x1024) (V c main_arg2) (((cfg0.win 1).blk t).view.emb (ix2 d q)) = _
  have h0 : ((cfg0.win 0).blk t).view.emb (ix2 p d) = ix2 (n0 := 8192) (n1 := 1024) ((((cfg0.win 2).blk t).view.emb (ix2 p q)) 0) d := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * d.val = d.val; omega
  have h1 : ((cfg0.win 1).blk t).view.emb (ix2 d q) = ix2 (n0 := 1024) (n1 := 1024) d ((((cfg0.win 2).blk t).view.emb (ix2 p q)) 1) := by
    funext a; apply Fin.ext
    match a with
    | ⟨0, _⟩ => show win0_1.index t (0 : Fin 2) * 1024 + 1 * d.val = d.val; omega
    | ⟨1, _⟩ => show win0_1.index t (1 : Fin 2) * 1024 + 1 * q.val = win0_2.index t (1 : Fin 2) * 1024 + 1 * q.val; omega
  rw [h0, h1]

/-- An index of the result lies in point t's block exactly when its row is one of that block's 1024. -/
theorem ywMem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the result is written back by the point that owns its row. -/
theorem ywCovered (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_2 _, ?_⟩
  rw [ywMem_blk]
  obtain ⟨e0, e1, e2, e3, e4, e5⟩ := idx_facts0 ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e5]; show (i 0).val / 1024 * 1024 ≤ (i 0).val ∧ (i 0).val < (i 0).val / 1024 * 1024 + 1024; omega
  | ⟨1, _⟩ =>
    show win0_2.index _ (1 : Fin 2) * 1024 ≤ (i 1).val ∧ (i 1).val < win0_2.index _ (1 : Fin 2) * 1024 + 1024
    rw [e4]; omega

/-- The result array after the pass is the product of the arrays it was entered with. -/
theorem ywFinal (c : Dev nD) : (dat0 (F := Ideal) V c).arrAt 2 cfg0.N = ywG (V c main_arg0) (V c main_arg2) :=
  (dat0 (F := Ideal) V c).arrAt_eq_of_cover 2 (ywG (V c main_arg0) (V c main_arg2)) (fun t _ => ywFlushed_eq V c t) ywCovered

/-- Entry (n, k) of the result after the pass. -/
theorem yw_value (c : Dev nD) (n : Fin 8192) (k : Fin 1024) :
    asE (S := S8192x1024) ((dat0 (F := Ideal) V c).arrAt 2 cfg0.N) (ix2 n k)
      = ∑ d : Fin 1024, asE (S := S8192x1024) (V c main_arg0) (ix2 n d) * asE (S := S1024x1024) (V c main_arg2) (ix2 d k) := by
  rw [ywFinal]; rfl

end Cert.KernelIdeal.Hand

end
-- ==== Proof.LibSoftmaxShift.lean ====
/-
  Exponentials of shifted real scores, normalised, on the extended reals.

  For finitely many real scores s_k (at least one) and a real shift M,
      exp(s_j − M) / (0 + Σ_k exp(s_k − M)) = exp(s_j) / Σ_k exp(s_k),
  since exp(s − M) = exp(s)/exp(M) and the common factor 1/exp(M) leaves the quotient: the weights computed after
  subtracting a row's maximum are the weights computed directly. Beside it: a finite sum of reals taken in the
  extended reals is the real sum, and the maximum of at least one real folded from −∞ (and compared with −∞ once
  more, as a guarded row maximum is) is a real number, so it can serve as the shift M.
-/
import Idealize.ShloMosaic.PureOps.Ideal.Laws

noncomputable section

open scoped BigOperators

namespace Cert.Lib.SoftmaxShift

open Idealize.ShloMosaic

/-- A finite sum of reals, taken in the extended reals, is the real sum. -/
theorem coe_sum {ι : Type*} (s : Finset ι) (f : ι → ℝ) : ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- The largest of finitely many reals, folded from −∞ and then compared with −∞ once more, is a real number
    (there is at least one of them). -/
theorem rowMax_real {K : ℕ} (hK : 0 < K) (s : Fin K → ℝ) :
    ∃ M : ℝ, max (⊥ : EReal) ((Finset.univ : Finset (Fin K)).fold max (⊥ : EReal) (fun k => (s k : EReal))) = (M : EReal) := by
  rw [max_eq_right bot_le]
  have htop : (Finset.univ : Finset (Fin K)).fold max (⊥ : EReal) (fun k => (s k : EReal)) ≠ ⊤ := by
    have h : (Finset.univ : Finset (Fin K)).fold max (⊥ : EReal) (fun k => (s k : EReal)) < ⊤ := by
      rw [Finset.fold_max_lt]
      exact ⟨bot_lt_top, fun k _ => EReal.coe_lt_top _⟩
    exact h.ne
  have hbot : (Finset.univ : Finset (Fin K)).fold max (⊥ : EReal) (fun k => (s k : EReal)) ≠ ⊥ := by
    have h : (⊥ : EReal) < (Finset.univ : Finset (Fin K)).fold max (⊥ : EReal) (fun k => (s k : EReal)) := by
      rw [Finset.lt_fold_max]
      exact Or.inr ⟨(⟨0, hK⟩ : Fin K), Finset.mem_univ _, EReal.bot_lt_coe _⟩
    exact h.ne'
  exact ⟨_, (EReal.coe_toReal htop hbot).symm⟩

/-- THE LAW. For real scores and a real shift `M`, exponentiating the shifted scores and normalising them (the
    normaliser summed from zero) gives the weights of the unshifted scores. -/
theorem softmax_shift {K : ℕ} (hK : 0 < K) (s : Fin K → ℝ) (M : ℝ) (j : Fin K) :
    Ideal.div (Ideal.exp ((s j : EReal) - (M : EReal))) ((0 : EReal) + ∑ k : Fin K, Ideal.exp ((s k : EReal) - (M : EReal)))
      = Ideal.div (Ideal.exp (s j : EReal)) (∑ k : Fin K, Ideal.exp (s k : EReal)) := by
  have hne : (Finset.univ : Finset (Fin K)).Nonempty := ⟨⟨0, hK⟩, Finset.mem_univ _⟩
  have hpos : 0 < ∑ k : Fin K, Real.exp (s k) := Finset.sum_pos (fun k _ => Real.exp_pos _) hne
  have hpos' : 0 < ∑ k : Fin K, Real.exp (s k - M) := Finset.sum_pos (fun k _ => Real.exp_pos _) hne
  have hM : Real.exp M ≠ 0 := (Real.exp_pos M).ne'
  simp only [← EReal.coe_sub, Ideal.exp_coe, zero_add, coe_sum]
  rw [Ideal.div_coe hpos.ne', Ideal.div_coe hpos'.ne', ← EReal.coe_mul, ← EReal.coe_mul]
  refine congrArg _ ?_
  have hs : ∑ k : Fin K, Real.exp (s k - M) = (∑ k : Fin K, Real.exp (s k)) / Real.exp M := by
    rw [Finset.sum_div]; exact Finset.sum_congr rfl fun k _ => Real.exp_sub _ _
  rw [hs, Real.exp_sub]
  have hS : (∑ k : Fin K, Real.exp (s k)) ≠ 0 := hpos.ne'
  field_simp

end Cert.Lib.SoftmaxShift

end
-- ==== Proof.OnlineLse.lean ====
/-
  A row's softmax normaliser accumulated block by block under a moving shift.

  A row of N = T·R real scores s_0 … s_{N-1} is read in T blocks of R. Beside it run a real shift M_j and a
  normaliser L_j with L_0 = 0 and
      L_{j+1} = L_j · exp(M_j − M_{j+1}) + Σ_{i<R} exp(s_{R·j+i} − M_{j+1}).
  Because exp(a − b)·exp(b − c) = exp(a − c), rescaling the old normaliser by exp(M_j − M_{j+1}) re-expresses every
  term already gathered relative to the new shift, so by induction
      L_j = Σ_{k < R·j} exp(s_k − M_j)        (j ≤ T),
  whatever real numbers the shifts are. At the end M_T + log L_T = log Σ_k exp(s_k), the shift cancels, and for
  every score s_n
      exp(s_n − (M_T + log L_T)) = exp(s_n) / Σ_k exp(s_k),
  which is also exp(s_n − Mx) / Σ_k exp(s_k − Mx) for any real Mx: the weight obtained from the running
  normaliser is the weight obtained by shifting the whole row once. Beside these: the maximum of at least one real
  folded from −∞ is real, the maximum of two reals is real, and a finite sum of products of reals is real.
-/
import Idealize.ShloMosaic.PureOps.Ideal.Laws
import proofs.«125493_j42185168781604_2_alg».proof.Proof.LibSoftmaxShift

noncomputable section

open scoped BigOperators

namespace Cert.OnlineLse

open Idealize.ShloMosaic
open Cert.Lib.SoftmaxShift

/-- A finite sum of products of reals, taken in the extended reals, is the real sum of the real products. -/
theorem coe_sum_mul {ι : Type*} (t : Finset ι) (f g : ι → ℝ) :
    ∑ k ∈ t, ((f k : ℝ) : EReal) * ((g k : ℝ) : EReal) = ((∑ k ∈ t, f k * g k : ℝ) : EReal) := by
  rw [← coe_sum]
  exact Finset.sum_congr rfl fun k _ => (EReal.coe_mul _ _).symm

/-- The larger of two reals, compared in the extended reals, is the real maximum. -/
theorem max_real (a b : ℝ) : max (a : EReal) (b : EReal) = ((max a b : ℝ) : EReal) :=
  (Monotone.map_max EReal.coe_strictMono.monotone).symm

/-- The largest of finitely many reals (at least one), folded from −∞, is a real number. -/
theorem blockMax_real {R : ℕ} (hR : 0 < R) (f : Fin R → ℝ) :
    ∃ c : ℝ, (Finset.univ : Finset (Fin R)).fold max (⊥ : EReal) (fun i => (f i : EReal)) = (c : EReal) := by
  obtain ⟨c, hc⟩ := rowMax_real hR f
  rw [max_eq_right bot_le] at hc
  exact ⟨c, hc⟩

/-- THE INVARIANT. After j blocks the running normaliser is the sum, over the R·j scores read so far, of
    exp(score − current shift): rescaling by exp(M_j − M_{j+1}) turns each old term exp(s_k − M_j) into
    exp(s_k − M_{j+1}), and the new block's terms are added already relative to M_{j+1}. -/
theorem running_normaliser (T R : ℕ) (s : ℕ → ℝ) (M : ℕ → ℝ) (L : ℕ → EReal) (h0 : L 0 = 0)
    (hs : ∀ j, j < T → L (j + 1) = L j * Ideal.exp ((M j : EReal) - (M (j + 1) : EReal))
      + ((0 : EReal) + ∑ i : Fin R, Ideal.exp ((s (R * j + i.val) : EReal) - (M (j + 1) : EReal)))) :
    ∀ j, j ≤ T → L j = ((∑ k ∈ Finset.range (R * j), Real.exp (s k - M j) : ℝ) : EReal) := by
  intro j
  induction j with
  | zero => intro _; simp [h0]
  | succ j ih =>
    intro hj
    have hjT : j < T := hj
    rw [hs j hjT, ih hjT.le]
    simp only [← EReal.coe_sub, Ideal.exp_coe, zero_add, coe_sum, ← EReal.coe_mul, ← EReal.coe_add]
    refine congrArg _ ?_
    rw [Nat.mul_succ, Finset.sum_range_add, Finset.sum_mul]
    congr 1
    · refine Finset.sum_congr rfl fun k _ => ?_
      rw [← Real.exp_add]; congr 1; ring
    · exact (Finset.sum_range (fun i => Real.exp (s (R * j + i) - M (j + 1)))).symm

/-- The invariant, with each block's sum not started from zero. -/
theorem running_normaliser' (T R : ℕ) (s : ℕ → ℝ) (M : ℕ → ℝ) (L : ℕ → EReal) (h0 : L 0 = 0)
    (hs : ∀ j, j < T → L (j + 1) = L j * Ideal.exp ((M j : EReal) - (M (j + 1) : EReal))
      + ∑ i : Fin R, Ideal.exp ((s (R * j + i.val) : EReal) - (M (j + 1) : EReal))) :
    ∀ j, j ≤ T → L j = ((∑ k ∈ Finset.range (R * j), Real.exp (s k - M j) : ℝ) : EReal) :=
  running_normaliser T R s M L h0 (fun j hj => by rw [hs j hj, zero_add])

/-- Once all T blocks are read, M_T + log L_T is the logarithm of Σ_k exp(s_k), so exponentiating a score minus
    it gives that score's weight exp(s_n) / Σ_k exp(s_k): the final shift M_T cancels. -/
theorem weight_of_running_direct (T R N : ℕ) (hN : T * R = N) (hN0 : 0 < N) (s : ℕ → ℝ) (M : ℕ → ℝ) (L : ℕ → EReal)
    (h0 : L 0 = 0)
    (hs : ∀ j, j < T → L (j + 1) = L j * Ideal.exp ((M j : EReal) - (M (j + 1) : EReal))
      + ((0 : EReal) + ∑ i : Fin R, Ideal.exp ((s (R * j + i.val) : EReal) - (M (j + 1) : EReal))))
    (n : Fin N) :
    Ideal.exp ((s n.val : EReal) - ((M T : EReal) + Ideal.log (L T)))
      = Ideal.div (Ideal.exp (s n.val : EReal)) (∑ k : Fin N, Ideal.exp (s k.val : EReal)) := by
  have hL := running_normaliser T R s M L h0 hs T le_rfl
  have hRT : R * T = N := by rw [mul_comm]; exact hN
  rw [hRT] at hL
  have hne : (Finset.range N).Nonempty := ⟨0, Finset.mem_range.mpr hN0⟩
  have hpos' : 0 < ∑ k ∈ Finset.range N, Real.exp (s k - M T) :=
    Finset.sum_pos (fun k _ => Real.exp_pos _) hne
  have hpos : 0 < ∑ k : Fin N, Real.exp (s k.val) :=
    Finset.sum_pos (fun k _ => Real.exp_pos _) ⟨n, Finset.mem_univ _⟩
  have hS : ∑ k ∈ Finset.range N, Real.exp (s k - M T) = (∑ k : Fin N, Real.exp (s k.val)) / Real.exp (M T) := by
    rw [Finset.sum_div, Finset.sum_range]; exact Finset.sum_congr rfl fun k _ => Real.exp_sub _ _
  rw [hL, Ideal.log_coe, if_neg (not_le.mpr hpos')]
  simp only [← EReal.coe_add, ← EReal.coe_sub, Ideal.exp_coe, coe_sum]
  rw [Ideal.div_coe hpos.ne', ← EReal.coe_mul]
  refine congrArg _ ?_
  have hM : Real.exp (M T) ≠ 0 := (Real.exp_pos _).ne'
  have hS0 : (∑ k : Fin N, Real.exp (s k.val)) ≠ 0 := hpos.ne'
  rw [Real.exp_sub, Real.exp_add, Real.exp_log hpos', hS]
  field_simp

/-- THE WEIGHT. The weight read off the running normaliser equals the weight obtained by shifting the whole row by
    any one real Mx, exponentiating and normalising (the normaliser summed from zero). -/
theorem weight_of_running (T R N : ℕ) (hN : T * R = N) (hN0 : 0 < N) (s : ℕ → ℝ) (M : ℕ → ℝ) (L : ℕ → EReal)
    (h0 : L 0 = 0)
    (hs : ∀ j, j < T → L (j + 1) = L j * Ideal.exp ((M j : EReal) - (M (j + 1) : EReal))
      + ((0 : EReal) + ∑ i : Fin R, Ideal.exp ((s (R * j + i.val) : EReal) - (M (j + 1) : EReal))))
    (Mx : ℝ) (n : Fin N) :
    Ideal.exp ((s n.val : EReal) - ((M T : EReal) + Ideal.log (L T)))
      = Ideal.div (Ideal.exp ((s n.val : EReal) - (Mx : EReal)))
          ((0 : EReal) + ∑ k : Fin N, Ideal.exp ((s k.val : EReal) - (Mx : EReal))) := by
  rw [weight_of_running_direct T R N hN hN0 s M L h0 hs n]
  exact (softmax_shift hN0 (fun k : Fin N => s k.val) Mx n).symm

/-- The weight, with each block's sum not started from zero (the row's normaliser on the right still is). -/
theorem weight_of_running' (T R N : ℕ) (hN : T * R = N) (hN0 : 0 < N) (s : ℕ → ℝ) (M : ℕ → ℝ) (L : ℕ → EReal)
    (h0 : L 0 = 0)
    (hs : ∀ j, j < T → L (j + 1) = L j * Ideal.exp ((M j : EReal) - (M (j + 1) : EReal))
      + ∑ i : Fin R, Ideal.exp ((s (R * j + i.val) : EReal) - (M (j + 1) : EReal)))
    (Mx : ℝ) (n : Fin N) :
    Ideal.exp ((s n.val : EReal) - ((M T : EReal) + Ideal.log (L T)))
      = Ideal.div (Ideal.exp ((s n.val : EReal) - (Mx : EReal)))
          ((0 : EReal) + ∑ k : Fin N, Ideal.exp ((s k.val : EReal) - (Mx : EReal))) :=
  weight_of_running T R N hN hN0 s M L h0 (fun j hj => by rw [hs j hj, zero_add]) Mx n

/-- The weight, with neither the row's normaliser on the right nor the blocks' sums started from zero. -/
theorem weight_of_running'' (T R N : ℕ) (hN : T * R = N) (hN0 : 0 < N) (s : ℕ → ℝ) (M : ℕ → ℝ) (L : ℕ → EReal)
    (h0 : L 0 = 0)
    (hs : ∀ j, j < T → L (j + 1) = L j * Ideal.exp ((M j : EReal) - (M (j + 1) : EReal))
      + ∑ i : Fin R, Ideal.exp ((s (R * j + i.val) : EReal) - (M (j + 1) : EReal)))
    (Mx : ℝ) (n : Fin N) :
    Ideal.exp ((s n.val : EReal) - ((M T : EReal) + Ideal.log (L T)))
      = Ideal.div (Ideal.exp ((s n.val : EReal) - (Mx : EReal)))
          (∑ k : Fin N, Ideal.exp ((s k.val : EReal) - (Mx : EReal))) := by
  rw [weight_of_running' T R N hN hN0 s M L h0 hs Mx n, zero_add]

/-- The weight, with the blocks' sums started from zero and the row's normaliser on the right not. -/
theorem weight_of_running_sum (T R N : ℕ) (hN : T * R = N) (hN0 : 0 < N) (s : ℕ → ℝ) (M : ℕ → ℝ) (L : ℕ → EReal)
    (h0 : L 0 = 0)
    (hs : ∀ j, j < T → L (j + 1) = L j * Ideal.exp ((M j : EReal) - (M (j + 1) : EReal))
      + ((0 : EReal) + ∑ i : Fin R, Ideal.exp ((s (R * j + i.val) : EReal) - (M (j + 1) : EReal))))
    (Mx : ℝ) (n : Fin N) :
    Ideal.exp ((s n.val : EReal) - ((M T : EReal) + Ideal.log (L T)))
      = Ideal.div (Ideal.exp ((s n.val : EReal) - (Mx : EReal)))
          (∑ k : Fin N, Ideal.exp ((s k.val : EReal) - (Mx : EReal))) := by
  rw [weight_of_running T R N hN hN0 s M L h0 hs Mx n, zero_add]

end Cert.OnlineLse

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Pay1a.lean ====
/-
  The second pass's body arithmetic, read entry by entry on the extended reals: the starting values, the block of
  scores, and what the last step stores.

  One step of the second pass holds 2048 rows of h and 512 rows of the first product y·W. It forms the 2048 × 512
  block of scores: row r of h against row j of y·W, the sum over k of h(r, k)·yw(j, k) — the second operand enters
  transposed, and a transpose read at an index swaps the two coordinates. Before the first step the running maximum
  is set to one finite constant in every row and the running normaliser to zero. After the last step the pass stores
  maximum + log(normaliser), transposed into a row.
-/
import proofs.«125493_j42185168781604_2_alg».proof.Proof.Gen.KernelIdeal.Skeleton
import proofs.«125493_j42185168781604_2_alg».proof.Proof.LibStdMatmul
import proofs.«125493_j42185168781604_2_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The word of −∞ denotes −∞. -/
theorem ofBits_ninf_f32 : Ideal.ofBits .f32 0xFF800000#32 = (⊥ : EReal) := by simp [Ideal.ofBits, Ideal.ieee]

/-- Row r of the reduced vector with column k put back is the entry (r, k) of the block. -/
theorem lift_row (h : S2048x512.Reduces [1] S2048) (r : Fin 2048) (k : Fin 512) :
    h.lift (ix1 r) k = ix2 r k := by
  funext c; apply Fin.ext
  fin_cases c <;> rfl

/-- The running maximum's starting value: one finite constant in every row. -/
theorem pay1_apply (r : Fin 2048) : k1_pay1 (F := Ideal) (ix2 r (0 : Fin 1)) = Ideal.ofBits .f32 0xFF333332#32 := by
  unfold k1_pay1
  simp only [shapeCast_self]
  rfl

/-- That constant is a real number (a normal pattern: neither an infinity nor a NaN). -/
theorem pay1_real : ∃ r0 : ℝ, Ideal.ofBits .f32 0xFF333332#32 = (r0 : EReal) := by
  have hex : ¬ ((0xFF333332#32 : BitVec 32).extractLsb' 23 8).toNat = 2 ^ 8 - 1 := by decide
  show ∃ r0 : ℝ, Ideal.ieee 8 23 (0xFF333332#32 : BitVec 32) = (r0 : EReal)
  unfold Ideal.ieee
  simp only []
  rw [if_neg hex]
  split <;> exact ⟨_, rfl⟩

/-- The running normaliser's starting value: zero in every row. -/
theorem pay2_apply (r : Fin 2048) : k1_pay2 (F := Ideal) (ix2 r (0 : Fin 1)) = 0 := by
  unfold k1_pay2
  simp only [shapeCast_self]
  exact Ideal.ofBits_zero_f32

/-- The block of scores at (r, j): row r of h against row j of y·W. -/
theorem pay3_apply (v3 : Vec Ideal S2048x1024 .bf16) (v5 : Vec Ideal S512x1024 .bf16) (r : Fin 2048) (j : Fin 512) :
    k1_pay3 (F := Ideal) v3 v5 (ix2 r j) = ∑ k : Fin 1024, v3 (ix2 r k) * v5 (ix2 j k) := by
  unfold k1_pay3
  simp only [shapeCast_self]
  refine (Cert.Lib.StdMatmul.matmul_std_ix2 dot_S2048x1024_S1024x512_S2048x512_1_0_0_1_n_n none rfl rfl rfl rfl rfl rfl _ _ r j).trans ?_
  refine Finset.sum_congr rfl fun k _ => ?_
  congr 1
  exact transpose_apply [1, 0] v5 transposes_S512x1024_p1_0_S1024x512 (ix2 k j) (ix2 j k) (fun b => by
    match b with
    | ⟨0, _⟩ => rfl
    | ⟨1, _⟩ => rfl)

/-- What the last step stores for row r, laid out as a row: maximum + log(normaliser). -/
theorem pay7_apply (v33 v34 : Vec Ideal S2048x1 .f32) (r : Fin 2048) :
    k1_pay7 (F := Ideal) v33 v34 (ix2 (0 : Fin 1) r) = v33 (ix2 r (0 : Fin 1)) + Ideal.log (v34 (ix2 r (0 : Fin 1))) := by
  unfold k1_pay7
  refine (transpose_apply [1, 0] _ transposes_S2048x1_p1_0_S1x2048 (ix2 (0 : Fin 1) r) (ix2 r (0 : Fin 1)) (fun b => by
    match b with
    | ⟨0, _⟩ => rfl
    | ⟨1, _⟩ => rfl)).trans ?_
  rfl

end Cert.KernelIdeal.Hand

end
-- ==== Proof.Pay1b.lean ====
/-
  The second pass's body arithmetic, read entry by entry on the extended reals: the running maximum after one step.

  For row r the step takes the maximum of the row's 512 new scores (a reduction over the second axis: the fold of max
  from −∞ over that axis's 512 coordinates), kept as a column, against the stored running maximum. The block of
  scores stays named throughout: nothing here opens it.
-/
import proofs.«125493_j42185168781604_2_alg».proof.Proof.Gen.KernelIdeal.Skeleton
import proofs.«125493_j42185168781604_2_alg».proof.Proof.LibStdMatmul
import proofs.«125493_j42185168781604_2_alg».proof.Proof.LibColumn
import proofs.«125493_j42185168781604_2_alg».proof.Proof.Pay1a
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

-- the block of scores stays a name: no step below may open the matrix product
attribute [local irreducible] k1_pay3

/-- The new running maximum of row r: the stored one against the largest of the row's 512 new scores. -/
theorem pay4_apply (v3 : Vec Ideal S2048x1024 .bf16) (v5 : Vec Ideal S512x1024 .bf16) (v11 : Vec Ideal S2048x1 .f32) (r : Fin 2048) :
    k1_pay4 (F := Ideal) v3 v5 v11 (ix2 r (0 : Fin 1))
      = max (v11 (ix2 r (0 : Fin 1))) ((Finset.univ : Finset (Fin 512)).fold max (⊥ : EReal) (fun j => k1_pay3 (F := Ideal) v3 v5 (ix2 r j))) := by
  show maximumf v11 (shapeCast S2048x1 (multiReduction (F := Ideal) .maximumf [1] S2048 (k1_pay3 (F := Ideal) v3 v5) 0xFF800000#32
    reduces_S2048x512_S2048 (.inl rfl) rfl) shapeCasts_S2048_S2048x1) (ix2 r (0 : Fin 1)) = _
  rw [maximumf_apply, Cert.Lib.Column.shapeCast_a_a1_apply]
  refine congrArg (max (v11 (ix2 r (0 : Fin 1)))) ?_
  refine (Ideal.multiReduction_maximumf_single (k1_pay3 (F := Ideal) v3 v5) 0xFF800000#32 reduces_S2048x512_S2048 (.inl rfl) rfl (ix1 r)).trans ?_
  have hf : (k1_pay3 (F := Ideal) v3 v5 ∘ (reduces_S2048x512_S2048).lift (ix1 r)) = fun j : Fin 512 => k1_pay3 (F := Ideal) v3 v5 (ix2 r j) :=
    funext fun k => congrArg (k1_pay3 (F := Ideal) v3 v5) (lift_row reduces_S2048x512_S2048 r k)
  rw [hf, Ideal.ofBits_def, ofBits_ninf_f32]
  rfl

end Cert.KernelIdeal.Hand

end
-- ==== Proof.Pay1c.lean ====
/-
  The second pass's normaliser update and stored maximum, read entry by entry on the extended reals.

  The new normaliser of row r is the stored one times exp(old maximum − new maximum) plus the sum, over the row's 512
  new scores, of exp(score − new maximum): a sum over the second axis kept as a column reads, at row r, the sum over
  that row's 512 coordinates, and a column spread back across a row reads the column's entry at the same row. The
  stored maximum is the new maximum itself.
-/
import proofs.«125493_j42185168781604_2_alg».proof.Proof.Gen.KernelIdeal.Skeleton
import proofs.«125493_j42185168781604_2_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

-- the block of scores and the new maximum stay closed throughout: nothing below depends on how they are computed
attribute [local irreducible] k1_pay3 k1_pay4

/-- Row r of the reduced vector with column k put back is the entry (r, k) of the block. -/
theorem lift_row_col (h : S2048x512.Reduces [1] S2048) (r : Fin 2048) (k : Fin (S2048x512.size 1)) :
    h.lift (ix1 r) k = ix2 r (⟨k.val, k.isLt⟩ : Fin 512) := by
  funext c; apply Fin.ext
  fin_cases c <;> rfl

/-- A 2048-by-512 block summed along its rows and kept as a column reads, at row r, the sum of that row. -/
theorem rowSum_apply (x : FVec Ideal S2048x512 .f32) (r : Fin 2048) :
    (shapeCast S2048x1 (multiReduction .add [1] S2048 x 0x00000000#32 reduces_S2048x512_S2048 (.inl rfl) rfl) shapeCasts_S2048_S2048x1 : FVec Ideal S2048x1 .f32)
      (ix2 r (0 : Fin 1)) = ∑ j : Fin 512, x (ix2 r j) := by
  rw [Cert.Lib.Column.shapeCast_a_a1_apply]
  refine (Ideal.multiReduction_add_single x 0x00000000#32 reduces_S2048x512_S2048 (.inl rfl) rfl (ix1 r)).trans ?_
  refine Finset.sum_congr rfl fun k _ => ?_
  rw [lift_row_col]
  rfl

/-- The new running normaliser of row r: the stored one rescaled from the old maximum to the new, plus the row's sum
    of the exponentials of the new scores shifted by the new maximum. -/
theorem pay5_apply (v3 : Vec Ideal S2048x1024 .bf16) (v5 : Vec Ideal S512x1024 .bf16) (v11 v13 v19 : Vec Ideal S2048x1 .f32) (r : Fin 2048) :
    k1_pay5 (F := Ideal) v3 v5 v11 v13 v19 (ix2 r (0 : Fin 1))
      = v19 (ix2 r (0 : Fin 1)) * Ideal.exp (v13 (ix2 r (0 : Fin 1)) - k1_pay4 (F := Ideal) v3 v5 v11 (ix2 r (0 : Fin 1)))
        + ∑ j : Fin 512, Ideal.exp (k1_pay3 (F := Ideal) v3 v5 (ix2 r j) - k1_pay4 (F := Ideal) v3 v5 v11 (ix2 r (0 : Fin 1))) := by
  unfold k1_pay5
  simp only [shapeCast_self]
  show v19 (ix2 r (0 : Fin 1)) * Ideal.exp (v13 (ix2 r (0 : Fin 1)) - k1_pay4 (F := Ideal) v3 v5 v11 (ix2 r (0 : Fin 1)))
    + (shapeCast S2048x1 (multiReduction .add [1] S2048
        (exp (subf (k1_pay3 (F := Ideal) v3 v5) (broadcastTo S2048x512 (k1_pay4 (F := Ideal) v3 v5 v11) broadcasts_S2048x1_S2048x512)))
        0x00000000#32 reduces_S2048x512_S2048 (.inl rfl) rfl) shapeCasts_S2048_S2048x1 : FVec Ideal S2048x1 .f32) (ix2 r (0 : Fin 1)) = _
  rw [rowSum_apply]
  congr 1
  refine Finset.sum_congr rfl fun j _ => ?_
  show Ideal.exp (k1_pay3 (F := Ideal) v3 v5 (ix2 r j)
    - broadcastTo S2048x512 (k1_pay4 (F := Ideal) v3 v5 v11) broadcasts_S2048x1_S2048x512 (ix2 r j)) = _
  rw [Cert.Lib.Column.broadcastTo_a1_ab_apply]

/-- The stored running maximum is the new running maximum. -/
theorem pay6_apply (v3 : Vec Ideal S2048x1024 .bf16) (v5 : Vec Ideal S512x1024 .bf16) (v11 : Vec Ideal S2048x1 .f32) (r : Fin 2048) :
    k1_pay6 (F := Ideal) v3 v5 v11 (ix2 r (0 : Fin 1)) = k1_pay4 (F := Ideal) v3 v5 v11 (ix2 r (0 : Fin 1)) := by
  unfold k1_pay6
  simp only [shapeCast_self]

end Cert.KernelIdeal.Hand

end
-- ==== Proof.Value1.lean ====
/-
  What the second pass leaves in its result array: for every row m of the first operand, the running shift and the
  running normaliser of that row's 8192 scores, gathered in 16 blocks of 512, combined as shift + log normaliser.

  Row m belongs to row block m / 2048, which the pass visits at the sixteen consecutive points 16·(m / 2048) + j,
  j = 0 … 15; at point j it reads the j-th block of 512 rows of the second operand. The pair (shift, normaliser) kept
  in the two scratch buffers is reset at j = 0 and moved one step at every point; after j = 15 the output block holds
  shift + log normaliser, and the pipeline writes it back to columns 2048·(m / 2048) … of the result row.
-/
import proofs.«125493_j42185168781604_2_alg».proof.Proof.Region1
import proofs.«125493_j42185168781604_2_alg».proof.Proof.Value0
import proofs.«125493_j42185168781604_2_alg».proof.Proof.OnlineLse
import Idealize.ShloMosaic.Lib.Pipeline.Value
import Idealize.ShloMosaic.Lib.ValueIdx
import Idealize.ShloMosaic.PureOps.Ideal.Laws
import proofs.«125493_j42185168781604_2_alg».proof.Proof.Pay1a
import proofs.«125493_j42185168781604_2_alg».proof.Proof.Pay1b
import proofs.«125493_j42185168781604_2_alg».proof.Proof.Pay1c
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-! ## Where the blocks sit -/

/-- Where each window's block sits at point t: the second operand's rows move with the point's position among its
    sixteen, the first operand's rows and the result's columns with the group of sixteen; every other index stays 0. -/
theorem idx_facts1 : ∀ t : Fin cfg1.N, win1_0.index t (0 : Fin 2) = t.val % 16 ∧ win1_0.index t (1 : Fin 2) = 0
    ∧ win1_1.index t (0 : Fin 2) = t.val / 16 ∧ win1_1.index t (1 : Fin 2) = 0
    ∧ win1_2.index t (0 : Fin 2) = 0 ∧ win1_2.index t (1 : Fin 2) = t.val / 16 :=
  (by decide +kernel : ∀ t : Fin grid1.N, _)

/-- Window 0's block at point t, entry (q, k): row 512·(t % 16) + q of the second operand. -/
theorem iblk1_0_apply (c : Dev nD) (t : Fin cfg1.N) (q : Fin 512) (k : Fin 1024) (n : Fin 8192) (hn : n.val = 512 * (t.val % 16) + q.val) :
    iblk1 V c 0 t (ix2 q k) = asE (S := S8192x1024) (V c main_v1) (ix2 n k) := by
  obtain ⟨e0, e1, e2, e3, e4, e5⟩ := idx_facts1 t
  show asE (S := S8192x1024) (V c main_v1) (((cfg1.win 0).blk t).view.emb (ix2 q k)) = _
  have h : ((cfg1.win 0).blk t).view.emb (ix2 q k) = ix2 (n0 := 8192) (n1 := 1024) n k := by
    funext a; apply Fin.ext
    match a with
    | ⟨0, _⟩ => show win1_0.index t (0 : Fin 2) * 512 + 1 * q.val = n.val; omega
    | ⟨1, _⟩ => show win1_0.index t (1 : Fin 2) * 1024 + 1 * k.val = k.val; omega
  rw [h]

/-- Window 1's block at point t, entry (r, k): row 2048·(t / 16) + r of the first operand. -/
theorem iblk1_1_apply (c : Dev nD) (t : Fin cfg1.N) (r : Fin 2048) (k : Fin 1024) (m : Fin 8192) (hm : m.val = 2048 * (t.val / 16) + r.val) :
    iblk1 V c 1 t (ix2 r k) = asE (S := S8192x1024) (V c main_v0) (ix2 m k) := by
  obtain ⟨e0, e1, e2, e3, e4, e5⟩ := idx_facts1 t
  show asE (S := S8192x1024) (V c main_v0) (((cfg1.win 1).blk t).view.emb (ix2 r k)) = _
  have h : ((cfg1.win 1).blk t).view.emb (ix2 r k) = ix2 (n0 := 8192) (n1 := 1024) m k := by
    funext a; apply Fin.ext
    match a with
    | ⟨0, _⟩ => show win1_1.index t (0 : Fin 2) * 2048 + 1 * r.val = m.val; omega
    | ⟨1, _⟩ => show win1_1.index t (1 : Fin 2) * 1024 + 1 * k.val = k.val; omega
  rw [h]

/-! ## From the blocks written back to the result array -/

/-- The output block after the last point of group g, at column q. -/
def lseRow (c : Dev nD) (g : ℕ) (hg : g < 4) (q : Fin 2048) : EReal :=
  k1_pay7 (F := Ideal) (mAt V c ⟨16 * g + 16, by have : cfg1.N = 64 := N_1; omega⟩) (lAt V c ⟨16 * g + 16, by have : cfg1.N = 64 := N_1; omega⟩)
    (ix2 (0 : Fin 1) q)

/-- The result row as one function of its index: column 2048·g + q holds group g's output block at q. -/
def lseG (c : Dev nD) : S1x8192.Idx → EReal :=
  fun i => lseRow V c ((i 1).val / 2048) (by have := (i 1).isLt; show (i 1).val / 2048 < 4; have : (i 1).val < 8192 := (i 1).isLt; omega)
    ⟨(i 1).val % 2048, Nat.mod_lt _ (by norm_num)⟩

/-- What a point that writes back (the last of its sixteen) writes is its block of that function. -/
theorem lseFlushed_eq (c : Dev nD) (t : Fin cfg1.N) (hf : (cfg1.win 2).flush t = true) :
    (dat1 (F := Ideal) V c).flushed 2 t = ((cfg1.win 2).blk t).view.read (Elt Ideal) (lseG V c) := by
  show (cfg1.win 2).cut (grid1.coords t) ((dat1 V c).after 2 t) = _
  rw [after1_2]
  have h15 : t.val % 16 = 15 := (flush1_2 t).mp hf
  have hN : t.val < 64 := lt_of_lt_of_eq t.isLt (show cfg1.N = 64 from N_1)
  obtain ⟨e0, e1, e2, e3, e4, e5⟩ := idx_facts1 t
  funext j
  obtain ⟨p, q, rfl⟩ : ∃ (p : Fin 1) (q : Fin 2048), j = ix2 p q := ⟨j 0, j 1, eq_ix2 j⟩
  show k1_pay7 (F := Ideal) (mAt V c t.succ) (lAt V c t.succ) (ix2 p q) = lseG V c (((cfg1.win 2).blk t).view.emb (ix2 p q))
  have hemb1 : ((((cfg1.win 2).blk t).view.emb (ix2 p q)) 1).val = t.val / 16 * 2048 + q.val := by
    show win1_2.index t (1 : Fin 2) * 2048 + 1 * q.val = _; rw [e5]; omega
  have key : ∀ (g : ℕ) (hg : g < 4) (q' : Fin 2048), g = t.val / 16 → q' = q →
      k1_pay7 (F := Ideal) (mAt V c t.succ) (lAt V c t.succ) (ix2 p q) = lseRow V c g hg q' := by
    intro g hg q' h1 h2; subst h2
    have hts : t.succ = ⟨16 * g + 16, by have : cfg1.N = 64 := N_1; omega⟩ := Fin.ext (by show t.val + 1 = 16 * g + 16; omega)
    have hp : p = 0 := Subsingleton.elim _ _
    unfold lseRow; rw [hts, hp]
  unfold lseG
  exact key _ _ _ (by rw [hemb1]; omega) (Fin.ext (by show _ % 2048 = q.val; rw [hemb1]; have := q.isLt; omega))

/-- An index of the result lies in point t's block exactly when its column is one of that block's 2048. -/
theorem lseMem_blk (t : Fin cfg1.N) (i : S1x8192.Idx) :
    i ∈ ((cfg1.win 2).blk t).view.set ↔ ∀ a : Fin 2, win1_2.index t a * S1x2048.size a ≤ (i a).val ∧ (i a).val < win1_2.index t a * S1x2048.size a + S1x2048.size a := by
  show i ∈ ((View.whole main_v2).slice (win1_2.rect t)).set ↔ _
  rw [View.set_slice_whole, Rect.mem_set_unit]
  exact Iff.rfl

/-- Every entry of the result is written back by the last point of the group that owns its column. -/
theorem lseCovered (i : S1x8192.Idx) :
    ∃ t : Fin cfg1.N, (cfg1.win 2).flush t = true ∧ i ∈ ((cfg1.win 2).blk t).view.set := by
  have hi0 : (i 0).val < 1 := (i 0).isLt
  have hi1 : (i 1).val < 8192 := (i 1).isLt
  have hN : cfg1.N = 64 := N_1
  refine ⟨⟨16 * ((i 1).val / 2048) + 15, by rw [hN]; omega⟩, (flush1_2 _).mpr (by show (16 * ((i 1).val / 2048) + 15) % 16 = 15; omega), ?_⟩
  rw [lseMem_blk]
  obtain ⟨e0, e1, e2, e3, e4, e5⟩ := idx_facts1 ⟨16 * ((i 1).val / 2048) + 15, by rw [hN]; omega⟩
  intro a
  match a with
  | ⟨0, _⟩ =>
    show win1_2.index _ (0 : Fin 2) * 1 ≤ (i 0).val ∧ (i 0).val < win1_2.index _ (0 : Fin 2) * 1 + 1
    rw [e4]; omega
  | ⟨1, _⟩ =>
    show win1_2.index _ (1 : Fin 2) * 2048 ≤ (i 1).val ∧ (i 1).val < win1_2.index _ (1 : Fin 2) * 2048 + 2048
    rw [e5]; show (16 * ((i 1).val / 2048) + 15) / 16 * 2048 ≤ (i 1).val ∧ (i 1).val < (16 * ((i 1).val / 2048) + 15) / 16 * 2048 + 2048; omega

/-- The result array after the pass. -/
theorem lseFinal (c : Dev nD) : (dat1 (F := Ideal) V c).arrAt 2 cfg1.N = lseG V c :=
  (dat1 (F := Ideal) V c).arrAt_eq_of_cover 2 (lseG V c) (fun t hf => lseFlushed_eq V c t hf) lseCovered

/-! ## One row's scores, shift and normaliser through its group's sixteen points -/

/-- The score of row m of the first operand against row n of the second. -/
def score1 (c : Dev nD) (m n : Fin 8192) : EReal :=
  ∑ k : Fin 1024, asE (S := S8192x1024) (V c main_v0) (ix2 m k) * asE (S := S8192x1024) (V c main_v1) (ix2 n k)

/-- The block of scores the body forms at step j of group g, at (r, i): the score of row 2048·g + r against row 512·j + i. -/
theorem blockScore (c : Dev nD) (g j : ℕ) (h : 16 * g + j < cfg1.N) (hj : j < 16) (r : Fin 2048) (i : Fin 512)
    (m n : Fin 8192) (hm : m.val = 2048 * g + r.val) (hn : n.val = 512 * j + i.val) :
    k1_pay3 (F := Ideal) (iblk1 V c 1 ⟨16 * g + j, h⟩) (iblk1 V c 0 ⟨16 * g + j, h⟩) (ix2 r i) = score1 V c m n := by
  rw [pay3_apply]
  unfold score1
  refine Finset.sum_congr rfl fun k _ => ?_
  rw [iblk1_1_apply V c ⟨16 * g + j, h⟩ r k m (by show m.val = 2048 * ((16 * g + j) / 16) + r.val; omega),
    iblk1_0_apply V c ⟨16 * g + j, h⟩ i k n (by show n.val = 512 * ((16 * g + j) % 16) + i.val; omega)]

/-- The scratch pair before step j of group g: the reset values at j = 0 (the body overwrites whatever it finds),
    what the point before left otherwise. -/
def pairAt (c : Dev nD) (g j : ℕ) (h : 16 * g + j ≤ cfg1.N) : Vec Ideal S2048x1 .f32 × Vec Ideal S2048x1 .f32 :=
  if j = 0 then (k1_pay1 (F := Ideal), k1_pay2 (F := Ideal)) else scrAt V c (16 * g + j) h

/-- One step on. -/
theorem pairAt_succ (c : Dev nD) (g j : ℕ) (hj : j < 16) (h : 16 * g + j + 1 ≤ cfg1.N) :
    pairAt V c g (j + 1) h
      = (stepM (iblk1 V c 0 ⟨16 * g + j, h⟩) (iblk1 V c 1 ⟨16 * g + j, h⟩) (pairAt V c g j (Nat.le_of_succ_le h)).1,
        stepL (iblk1 V c 0 ⟨16 * g + j, h⟩) (iblk1 V c 1 ⟨16 * g + j, h⟩) (pairAt V c g j (Nat.le_of_succ_le h)).1
          (pairAt V c g j (Nat.le_of_succ_le h)).2) := by
  unfold pairAt
  rw [if_neg (Nat.succ_ne_zero j)]
  show scrAt V c (16 * g + j + 1) h = _
  by_cases hz : j = 0
  · rw [if_pos hz, scrAt_succ_reset V c (16 * g + j) h (by omega)]
  · rw [if_neg hz, scrAt_succ_step V c (16 * g + j) h (by omega)]

theorem le16 (m : Fin 8192) (j : ℕ) (h : j ≤ 16) : 16 * (m.val / 2048) + j ≤ cfg1.N := by
  have : cfg1.N = 64 := N_1
  have := m.isLt
  omega

/-- Row m within its row block. -/
abbrev rowIn (m : Fin 8192) : Fin 2048 := ⟨m.val % 2048, Nat.mod_lt _ (by norm_num)⟩

/-- Row m's running shift before step j of its group (after step j − 1). -/
def Mv (c : Dev nD) (m : Fin 8192) (j : ℕ) : EReal :=
  if h : j ≤ 16 then (pairAt V c (m.val / 2048) j (le16 m j h)).1 (ix2 (rowIn m) (0 : Fin 1)) else 0

/-- Row m's running normaliser before step j of its group. -/
def Lv (c : Dev nD) (m : Fin 8192) (j : ℕ) : EReal :=
  if h : j ≤ 16 then (pairAt V c (m.val / 2048) j (le16 m j h)).2 (ix2 (rowIn m) (0 : Fin 1)) else 0

theorem blk512 (j : ℕ) (hj : j < 16) (i : Fin 512) : 512 * j + i.val < 8192 := by have := i.isLt; omega

/-- The shift moves to the larger of itself and the block's largest score. -/
theorem Mv_succ (c : Dev nD) (m : Fin 8192) (j : ℕ) (hj : j < 16) :
    Mv V c m (j + 1) = max (Mv V c m j) ((Finset.univ : Finset (Fin 512)).fold max (⊥ : EReal)
      (fun i => score1 V c m ⟨512 * j + i.val, blk512 j hj i⟩)) := by
  have hm := m.isLt
  have hN : cfg1.N = 64 := N_1
  have hlt : 16 * (m.val / 2048) + j < cfg1.N := by omega
  unfold Mv
  rw [dif_pos (show j + 1 ≤ 16 by omega), dif_pos (show j ≤ 16 by omega), pairAt_succ V c _ j hj]
  show k1_pay6 (F := Ideal) (iblk1 V c 1 ⟨16 * (m.val / 2048) + j, hlt⟩) (iblk1 V c 0 ⟨16 * (m.val / 2048) + j, hlt⟩)
    (pairAt V c (m.val / 2048) j _).1 (ix2 (rowIn m) (0 : Fin 1)) = _
  rw [pay6_apply, pay4_apply]
  have hf : (fun i : Fin 512 => k1_pay3 (F := Ideal) (iblk1 V c 1 ⟨16 * (m.val / 2048) + j, hlt⟩) (iblk1 V c 0 ⟨16 * (m.val / 2048) + j, hlt⟩) (ix2 (rowIn m) i))
      = fun i => score1 V c m ⟨512 * j + i.val, blk512 j hj i⟩ :=
    funext fun i => blockScore V c _ j hlt hj (rowIn m) i m _ (by show m.val = 2048 * (m.val / 2048) + m.val % 2048; omega) rfl
  rw [hf]

/-- Within the sixteen steps the shift and the normaliser are the scratch pair's entries at the row. -/
theorem Mv_eq (c : Dev nD) (m : Fin 8192) (j : ℕ) (hj : j ≤ 16) :
    Mv V c m j = (pairAt V c (m.val / 2048) j (le16 m j hj)).1 (ix2 (rowIn m) (0 : Fin 1)) := by
  unfold Mv; rw [dif_pos hj]
theorem Lv_eq (c : Dev nD) (m : Fin 8192) (j : ℕ) (hj : j ≤ 16) :
    Lv V c m j = (pairAt V c (m.val / 2048) j (le16 m j hj)).2 (ix2 (rowIn m) (0 : Fin 1)) := by
  unfold Lv; rw [dif_pos hj]

/-- The normaliser is rescaled from the old shift to the new and gains the block's exponentials at the new shift. -/
theorem Lv_succ (c : Dev nD) (m : Fin 8192) (j : ℕ) (hj : j < 16) :
    Lv V c m (j + 1) = Lv V c m j * Ideal.exp (Mv V c m j - Mv V c m (j + 1))
      + ∑ i : Fin 512, Ideal.exp (score1 V c m ⟨512 * j + i.val, blk512 j hj i⟩ - Mv V c m (j + 1)) := by
  have hm := m.isLt
  have hN : cfg1.N = 64 := N_1
  have hlt : 16 * (m.val / 2048) + j < cfg1.N := by omega
  have hM : Mv V c m (j + 1) = k1_pay4 (F := Ideal) (iblk1 V c 1 ⟨16 * (m.val / 2048) + j, hlt⟩) (iblk1 V c 0 ⟨16 * (m.val / 2048) + j, hlt⟩)
      (pairAt V c (m.val / 2048) j (le16 m j (by omega))).1 (ix2 (rowIn m) (0 : Fin 1)) := by
    rw [Mv_eq V c m (j + 1) (by omega), pairAt_succ V c _ j hj]
    show k1_pay6 (F := Ideal) (iblk1 V c 1 ⟨16 * (m.val / 2048) + j, hlt⟩) (iblk1 V c 0 ⟨16 * (m.val / 2048) + j, hlt⟩)
      (pairAt V c (m.val / 2048) j _).1 (ix2 (rowIn m) (0 : Fin 1)) = _
    rw [pay6_apply]
  rw [hM, Lv_eq V c m (j + 1) (by omega), Lv_eq V c m j (by omega), Mv_eq V c m j (by omega), pairAt_succ V c _ j hj]
  show k1_pay5 (F := Ideal) (iblk1 V c 1 ⟨16 * (m.val / 2048) + j, hlt⟩) (iblk1 V c 0 ⟨16 * (m.val / 2048) + j, hlt⟩)
    (pairAt V c (m.val / 2048) j _).1 (pairAt V c (m.val / 2048) j _).1 (pairAt V c (m.val / 2048) j _).2 (ix2 (rowIn m) (0 : Fin 1)) = _
  rw [pay5_apply]
  congr 1
  refine Finset.sum_congr rfl fun i _ => ?_
  rw [blockScore V c _ j hlt hj (rowIn m) i m ⟨512 * j + i.val, blk512 j hj i⟩ (by show m.val = 2048 * (m.val / 2048) + m.val % 2048; omega) rfl]

/-- With real scores every shift is a real number: the starting constant is, and the larger of a real and the largest
    of 512 reals is. -/
theorem Mv_real (c : Dev nD) (m : Fin 8192) (s : ℕ → ℝ) (hs : ∀ n : Fin 8192, score1 V c m n = (s n.val : EReal)) :
    ∀ j, j ≤ 16 → ∃ x : ℝ, Mv V c m j = (x : EReal) := by
  intro j
  induction j with
  | zero =>
    intro _
    obtain ⟨r0, hr0⟩ := pay1_real
    refine ⟨r0, ?_⟩
    unfold Mv pairAt
    rw [dif_pos (Nat.zero_le _), if_pos rfl]
    show k1_pay1 (F := Ideal) (ix2 (rowIn m) (0 : Fin 1)) = _
    rw [pay1_apply, hr0]
  | succ j ih =>
    intro hj
    obtain ⟨x, hx⟩ := ih (by omega)
    have hf : (fun i : Fin 512 => score1 V c m ⟨512 * j + i.val, blk512 j (by omega) i⟩) = fun i : Fin 512 => ((s (512 * j + i.val) : ℝ) : EReal) :=
      funext fun i => hs _
    obtain ⟨b, hb⟩ := Cert.OnlineLse.blockMax_real (R := 512) (by norm_num) (fun i => s (512 * j + i.val))
    refine ⟨max x b, ?_⟩
    rw [Mv_succ V c m j (by omega), hf, hb, hx]
    exact Cert.OnlineLse.max_real x b

/-- Off the first step the pair is what the point before left. -/
theorem pairAt_pos (c : Dev nD) (g j : ℕ) (h : 16 * g + j ≤ cfg1.N) (hj : j ≠ 0) : pairAt V c g j h = scrAt V c (16 * g + j) h := by
  unfold pairAt; rw [if_neg hj]

/-- The normaliser starts from zero. -/
theorem Lv_zero (c : Dev nD) (m : Fin 8192) : Lv V c m 0 = 0 := by
  rw [Lv_eq V c m 0 (Nat.zero_le _)]
  unfold pairAt
  rw [if_pos rfl]
  exact pay2_apply (rowIn m)

/-- Row m's entry of the result after the pass: the shift plus the logarithm of the normaliser after the sixteenth step. -/
theorem lse_entry (c : Dev nD) (m : Fin 8192) :
    asE (S := S1x8192) ((dat1 (F := Ideal) V c).arrAt 2 cfg1.N) (ix2 (0 : Fin 1) m) = Mv V c m 16 + Ideal.log (Lv V c m 16) := by
  rw [lseFinal]
  show lseRow V c (m.val / 2048) _ (rowIn m) = _
  unfold lseRow
  rw [pay7_apply, Mv_eq V c m 16 le_rfl, Lv_eq V c m 16 le_rfl, pairAt_pos V c _ 16 _ (by norm_num)]
  rfl

/-- A row's real scores as a function of the natural numbers (zero past the row's end). -/
def rowScores (sr : Fin 8192 → ℝ) : ℕ → ℝ := fun k => if h : k < 8192 then sr ⟨k, h⟩ else 0

theorem rowScores_val (sr : Fin 8192 → ℝ) (n : Fin 8192) : rowScores sr n.val = sr n := by
  unfold rowScores; rw [dif_pos n.isLt]

/-- THE SECOND PASS'S VALUE. With real scores, row m's entry of the result is shift + log normaliser of a pair that
    starts from normaliser 0 and moves through the row's 16 blocks of 512 scores by the online recurrence. -/
theorem lse_value_aux (c : Dev nD) (hs : ∀ m n : Fin 8192, ∃ r : ℝ, score1 V c m n = (r : EReal)) (m : Fin 8192) :
    ∃ (s : ℕ → ℝ) (M : ℕ → ℝ) (L : ℕ → EReal),
      (∀ n : Fin 8192, score1 V c m n = (s n.val : EReal)) ∧ L 0 = 0
      ∧ (∀ j, j < 16 → L (j + 1) = L j * Ideal.exp ((M j : EReal) - (M (j + 1) : EReal))
          + ∑ i : Fin 512, Ideal.exp ((s (512 * j + i.val) : EReal) - (M (j + 1) : EReal)))
      ∧ asE (S := S1x8192) ((dat1 (F := Ideal) V c).arrAt 2 cfg1.N) (ix2 (0 : Fin 1) m) = (M 16 : EReal) + Ideal.log (L 16) := by
  choose sr hsr using hs
  have hsn : ∀ n : Fin 8192, score1 V c m n = ((rowScores (sr m) n.val : ℝ) : EReal) := fun n => by
    rw [rowScores_val]; exact hsr m n
  have hreal := Mv_real V c m (rowScores (sr m)) hsn
  have hM : ∀ j, j ≤ 16 → ((Mv V c m j).toReal : EReal) = Mv V c m j := fun j hj => by
    obtain ⟨x, hx⟩ := hreal j hj; rw [hx, EReal.toReal_coe]
  refine ⟨rowScores (sr m), fun j => (Mv V c m j).toReal, Lv V c m, hsn, Lv_zero V c m, fun j hj => ?_, ?_⟩
  · rw [hM j (by omega), hM (j + 1) (by omega), Lv_succ V c m j hj]
    congr 1
    refine Finset.sum_congr rfl fun i _ => ?_
    rw [hsn]
  · rw [hM 16 le_rfl]
    exact lse_entry V c m

/-- The same with the scores written out. -/
theorem lse_value (c : Dev nD)
    (hs : ∀ m n : Fin 8192, ∃ r : ℝ, (∑ k : Fin 1024, asE (S := S8192x1024) (V c main_v0) (ix2 m k) * asE (S := S8192x1024) (V c main_v1) (ix2 n k)) = (r : EReal))
    (m : Fin 8192) :
    ∃ (s : ℕ → ℝ) (M : ℕ → ℝ) (L : ℕ → EReal),
      (∀ n : Fin 8192, (∑ k : Fin 1024, asE (S := S8192x1024) (V c main_v0) (ix2 m k) * asE (S := S8192x1024) (V c main_v1) (ix2 n k)) = (s n.val : EReal))
      ∧ L 0 = 0
      ∧ (∀ j, j < 16 → L (j + 1) = L j * Ideal.exp ((M j : EReal) - (M (j + 1) : EReal))
          + ∑ i : Fin 512, Ideal.exp ((s (512 * j + i.val) : EReal) - (M (j + 1) : EReal)))
      ∧ asE (S := S1x8192) ((dat1 (F := Ideal) V c).arrAt 2 cfg1.N) (ix2 (0 : Fin 1) m) = (M 16 : EReal) + Ideal.log (L 16) :=
  lse_value_aux V c hs m

end Cert.KernelIdeal.Hand
end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.Value2.lean ====
import proofs.«125493_j42185168781604_2_alg».proof.Proof.Region2
import proofs.«125493_j42185168781604_2_alg».proof.Proof.LibStdMatmul
import proofs.«125493_j42185168781604_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

/-!
# What the output pass leaves in its result array

Entry (n, k) of the result is the sum over all 8192 key rows m of exp(s(n, m) - lse(m)) · h(m, k), where
s(n, m) = Σ_k' yW(n, k') · h(m, k') and lse is the row of normalizers the pass is handed. The pass computes it for 2048
rows n at a time, adding 256 key rows per grid point into the output block held in its staging buffer: the first of
every 32 points starts from zeros, each later one adds to what the point before left, and the block is written back
after the 32nd. Roundings to the narrower format are the identity on the extended reals. So the block after its 32nd
point is the sum of the 32 contributions, which re-indexes to the sum over all 8192 key rows; each block written back
is the restriction of one whole-array function to its rows; and the four blocks cover the array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

section AnyFloat
variable {F : FTy → Type} [FloatOps F]

theorem origin2' : (![0, 0] : Fin 2 → Nat) = fun _ => 0 := funext fun a => by fin_cases a <;> rfl

/-- The accumulating case's value: the body leaves, in the output's staging buffer holding `xo3`, the one covering
    store's payload over the whole input blocks and `xo3`. -/
theorem out2_B_eq (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : ¬cond2_0 i)
    (x0 : Vec F S2048x1024 .bf16) (x1 : Vec F S256x1024 .bf16) (x2 : Vec F S1x256 .f32) (xo3 : Vec F S2048x1024 .f32) :
    out2_B_3 c i arg2 harg2 arg3 harg3 arg4 harg4 arg5 harg5 hc0 x0 x1 x2 xo3 = k2_pay2 x0 x1 x2 xo3 := by
  unfold out2_B_3
  rw [View.read_writes_eq_canon _ _ _ (cover2_B_3 c i arg2 harg2 arg3 harg3 arg4 harg4 arg5 harg5 hc0 x0 x1 x2 xo3)]
  unfold kernelRun2_B
  dsimp only
  rw [View.canon_unit_zero origin2']
  simp only [View.readAt_eq_ld, harg2.read_unread, harg3.read_unread, harg4.read_unread, harg5.read_unread,
    View.ld_unit_zero (S := S2048x1024) origin2', View.ld_unit_zero (S := S256x1024) origin2', View.ld_unit_zero (S := S1x256) origin2']

/-- The reset case's value: the body stores the zero block, reads it back, and leaves the same payload over the zero
    block. -/
theorem out2_A_eq (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S2048x1024 .f32) (harg5 : arg5.IsWhole) (hc0 : cond2_0 i)
    (x0 : Vec F S2048x1024 .bf16) (x1 : Vec F S256x1024 .bf16) (x2 : Vec F S1x256 .f32) :
    out2_A_3 c i arg2 harg2 arg3 harg3 arg4 harg4 arg5 harg5 hc0 x0 x1 x2 = k2_pay2 x0 x1 x2 (k2_pay1 (F := F)) := by
  unfold out2_A_3
  rw [View.read_writes_eq_canon _ _ _ (cover2_A_3 c i arg2 harg2 arg3 harg3 arg4 harg4 arg5 harg5 hc0 x0 x1 x2)]
  unfold kernelRun2_A
  dsimp only
  sl_unfold_words
  rw [View.canon_cons_unit_zero (S := S2048x1024) origin2', View.readCov_unit_zero (S := S2048x1024) _ origin2']
  simp only [View.readAt_eq_ld, harg2.read_unread, harg3.read_unread, harg4.read_unread,
    View.ld_unit_zero (S := S2048x1024) origin2', View.ld_unit_zero (S := S256x1024) origin2', View.ld_unit_zero (S := S1x256) origin2']

end AnyFloat

/-- The zero block the reset stores reads 0 everywhere. -/
theorem outZero_apply (j : S2048x1024.Idx) : k2_pay1 (F := Ideal) j = 0 := Ideal.ofBits_zero_f32

/-- The block the body stores, read at (p, q): what the buffer held there plus, over the 256 key rows r of the point's
    block, exp(s(p, r) - lse(r)) · h(r, q) with s(p, r) the product of query row p and key row r. -/
theorem outPay_apply (x0 : Vec Ideal S2048x1024 .bf16) (x1 : Vec Ideal S256x1024 .bf16) (x2 : Vec Ideal S1x256 .f32)
    (xo : Vec Ideal S2048x1024 .f32) (p : Fin 2048) (q : Fin 1024) :
    k2_pay2 (F := Ideal) x0 x1 x2 xo (ix2 p q)
      = xo (ix2 p q) + ∑ r : Fin 256, Ideal.exp ((∑ k' : Fin 1024, x0 (ix2 p k') * x1 (ix2 r k')) - x2 (ix2 (0 : Fin 1) r)) * x1 (ix2 r q) := by
  unfold k2_pay2
  simp only [shapeCast_self]
  rw [addf_apply]
  congr 1
  refine (Cert.Lib.StdMatmul.matmul_std_ix2 (φ₁ := .bf16) (φ₂ := .bf16) dot_S2048x256_S256x1024_S2048x1024_1_0_0_1_n_n none rfl rfl rfl rfl rfl rfl _ _ p q).trans ?_
  refine Finset.sum_congr rfl fun r _ => ?_
  congr 1
  show Ideal.exp (matmul (F := Ideal) dot_S2048x1024_S1024x256_S2048x256_1_0_0_1_n_n none x0 (transpose S1024x256 [1, 0] x1 transposes_S256x1024_p1_0_S1024x256) (constant S2048x256 .f32 0x00000000#32) (ix2 p r)
      - broadcastTo S2048x256 x2 broadcasts_S1x256_S2048x256 (ix2 p r)) = _
  rw [broadcastTo_apply x2 broadcasts_S1x256_S2048x256 (ix2 p r) (ix2 (0 : Fin 1) r) (fun a => by
      match a with
      | ⟨0, _⟩ => rfl
      | ⟨1, _⟩ => rfl)]
  congr 2
  refine (Cert.Lib.StdMatmul.matmul_std_ix2 (φ₁ := .bf16) (φ₂ := .bf16) dot_S2048x1024_S1024x256_S2048x256_1_0_0_1_n_n none rfl rfl rfl rfl rfl rfl _ _ p r).trans ?_
  refine Finset.sum_congr rfl fun k' _ => ?_
  congr 1
  exact transpose_apply [1, 0] x1 transposes_S256x1024_p1_0_S1024x256 (ix2 k' r) (ix2 r k') (fun b => by
    match b with
    | ⟨0, _⟩ => rfl
    | ⟨1, _⟩ => rfl)

/-! ## One key row's term, one point's contribution, and the whole sum -/

/-- Key row `m`'s term of entry (n, k): exp(s(n, m) - lse(m)) · h(m, k), over the arrays `a1` (projected queries),
    `a0` (keys) and `a2` (the row of normalizers). -/
def term2 (a1 a0 : S8192x1024.Idx → EReal) (a2 : S1x8192.Idx → EReal) (n : Fin 8192) (k : Fin 1024) (m : Fin 8192) : EReal :=
  Ideal.exp ((∑ k' : Fin 1024, a1 (ix2 (n0 := 8192) (n1 := 1024) n k') * a0 (ix2 (n0 := 8192) (n1 := 1024) m k'))
    - a2 (ix2 (n0 := 1) (n1 := 8192) (0 : Fin 1) m)) * a0 (ix2 (n0 := 8192) (n1 := 1024) m k)

/-- The terms of the 256 key rows of block `s` (nothing past the 32 blocks). -/
def contrib2 (a1 a0 : S8192x1024.Idx → EReal) (a2 : S1x8192.Idx → EReal) (n : Fin 8192) (k : Fin 1024) (s : ℕ) : EReal :=
  if h : s < 32 then ∑ r : Fin 256, term2 a1 a0 a2 n k ⟨256 * s + r.val, by have := r.isLt; omega⟩ else 0

/-- The 32 blocks' contributions are the sum over all 8192 key rows. -/
theorem sum_contrib2 (a1 a0 : S8192x1024.Idx → EReal) (a2 : S1x8192.Idx → EReal) (n : Fin 8192) (k : Fin 1024) :
    ∑ s ∈ Finset.range 32, contrib2 a1 a0 a2 n k s = ∑ m : Fin 8192, term2 a1 a0 a2 n k m := by
  rw [Cert.LibBlockSum.sum_by_blocks_of_eq 32 256 8192 rfl, Finset.sum_range]
  refine Finset.sum_congr rfl fun s _ => ?_
  unfold contrib2
  rw [dif_pos s.isLt]

/-- The whole-array function the pass computes. -/
def outG (a1 a0 : S8192x1024.Idx → EReal) (a2 : S1x8192.Idx → EReal) : S8192x1024.Idx → EReal :=
  fun i => ∑ m : Fin 8192, term2 a1 a0 a2 (i 0) (i 1) m

variable (V : (c : Dev nD) → (b : Ref sig .tc) → Buf (Elt Ideal) ((c : Thread nD τ).loc b))

/-- Where each window's block sits at point t = 32·a + j: the query rows and the output rows are block a, the key rows
    and the normalizers block j, every other block index 0. -/
theorem idx_facts2 : ∀ t : Fin cfg2.N,
    win2_0.index t (0 : Fin 2) = t.val / 32 ∧ win2_0.index t (1 : Fin 2) = 0
    ∧ win2_1.index t (0 : Fin 2) = t.val % 32 ∧ win2_1.index t (1 : Fin 2) = 0
    ∧ win2_2.index t (0 : Fin 2) = 0 ∧ win2_2.index t (1 : Fin 2) = t.val % 32
    ∧ win2_3.index t (0 : Fin 2) = t.val / 32 ∧ win2_3.index t (1 : Fin 2) = 0 :=
  (by decide +kernel : ∀ t : Fin grid2.N, _)

/-- The block the body stores at point t = 32·a + j, read at (p, q): what the buffer held there plus block j's
    contribution to entry (2048·a + p, q). -/
theorem pay2_point (c : Dev nD) (t : Fin cfg2.N) (a j : ℕ) (ha : a < 4) (hj : j < 32) (ht : t.val = 32 * a + j)
    (xo : Vec Ideal S2048x1024 .f32) (p : Fin 2048) (q : Fin 1024) :
    k2_pay2 (F := Ideal) (iblk2 V c 0 t) (iblk2 V c 1 t) (iblk2 V c 2 t) xo (ix2 p q)
      = xo (ix2 p q) + contrib2 (V c main_v1) (V c main_v0) (V c main_v2) ⟨2048 * a + p.val, by have := p.isLt; omega⟩ q j := by
  rw [outPay_apply]
  congr 1
  unfold contrib2
  rw [dif_pos hj]
  obtain ⟨e0, e1, e2, e3, e4, e5, e6, e7⟩ := idx_facts2 t
  have h0 : ∀ k' : Fin 1024, (iblk2 V c 0 t : Vec Ideal S2048x1024 .bf16) (ix2 p k')
      = V c main_v1 (ix2 (n0 := 8192) (n1 := 1024) ⟨2048 * a + p.val, by have := p.isLt; omega⟩ k') := fun k' => by
    show V c main_v1 (((cfg2.win 0).blk t).view.emb (ix2 p k')) = _
    congr 1; funext d; apply Fin.ext
    match d with
    | ⟨0, _⟩ => show win2_0.index t (0 : Fin 2) * 2048 + 1 * p.val = 2048 * a + p.val; rw [e0, ht]; omega
    | ⟨1, _⟩ => show win2_0.index t (1 : Fin 2) * 1024 + 1 * k'.val = k'.val; rw [e1]; omega
  have h1 : ∀ (r : Fin 256) (k' : Fin 1024), (iblk2 V c 1 t : Vec Ideal S256x1024 .bf16) (ix2 r k')
      = V c main_v0 (ix2 (n0 := 8192) (n1 := 1024) ⟨256 * j + r.val, by have := r.isLt; omega⟩ k') := fun r k' => by
    show V c main_v0 (((cfg2.win 1).blk t).view.emb (ix2 r k')) = _
    congr 1; funext d; apply Fin.ext
    match d with
    | ⟨0, _⟩ => show win2_1.index t (0 : Fin 2) * 256 + 1 * r.val = 256 * j + r.val; rw [e2, ht]; omega
    | ⟨1, _⟩ => show win2_1.index t (1 : Fin 2) * 1024 + 1 * k'.val = k'.val; rw [e3]; omega
  have h2 : ∀ r : Fin 256, (iblk2 V c 2 t : Vec Ideal S1x256 .f32) (ix2 (0 : Fin 1) r)
      = V c main_v2 (ix2 (n0 := 1) (n1 := 8192) (0 : Fin 1) ⟨256 * j + r.val, by have := r.isLt; omega⟩) := fun r => by
    show V c main_v2 (((cfg2.win 2).blk t).view.emb (ix2 (0 : Fin 1) r)) = _
    congr 1; funext d; apply Fin.ext
    match d with
    | ⟨0, _⟩ => show win2_2.index t (0 : Fin 2) * 1 + 1 * 0 = 0; rw [e4]
    | ⟨1, _⟩ => show win2_2.index t (1 : Fin 2) * 256 + 1 * r.val = 256 * j + r.val; rw [e5, ht]; omega
  refine Finset.sum_congr rfl fun r _ => ?_
  unfold term2
  simp only [h0, h1, h2]

/-- THE RUNNING TOTAL. After inner point j of output block a, the staging buffer at (p, q) holds the contributions of
    key blocks 0 … j to entry (2048·a + p, q): by induction on j, the reset at j = 0 starting it from zero. -/
theorem outs_fold (c : Dev nD) (a : ℕ) (ha : a < 4) (p : Fin 2048) (q : Fin 1024) :
    ∀ (j : ℕ) (hj : j < 32) (h : 32 * a + j < cfg2.N),
      outsAt2 V c (32 * a + j) h (ix2 p q)
        = ∑ s ∈ Finset.range (j + 1), contrib2 (V c main_v1) (V c main_v0) (V c main_v2) ⟨2048 * a + p.val, by have := p.isLt; omega⟩ q s
  | 0, hj, h => by
    rw [outsAt2_A V c ⟨32 * a + 0, h⟩ (by show (32 * a + 0) % 32 = 0; omega), out2_A_eq,
      pay2_point V c ⟨32 * a + 0, h⟩ a 0 ha hj rfl, outZero_apply, zero_add, Finset.sum_range_one]
  | j + 1, hj, h => by
    have hB : ¬(⟨32 * a + (j + 1), h⟩ : Fin cfg2.N).val % 32 = 0 := by show ¬(32 * a + (j + 1)) % 32 = 0; omega
    rw [outsAt2_B V c ⟨32 * a + (j + 1), h⟩ hB, out2_B_eq, pay2_point V c ⟨32 * a + (j + 1), h⟩ a (j + 1) ha hj rfl]
    show outsAt2 V c (32 * a + j) _ (ix2 p q) + _ = _
    rw [outs_fold c a ha p q j (by omega) _, Finset.sum_range_succ _ (j + 1)]

/-! ## Blocks to array -/

/-- What a point that writes back (inner coordinate 31) writes is its block of the whole-array function. -/
theorem out_flushed_eq (c : Dev nD) (t : Fin cfg2.N) (hf : (cfg2.win 3).flush t = true) :
    (dat2 (F := Ideal) V c).flushed 3 t
      = ((cfg2.win 3).blk t).view.read (Elt Ideal) (outG (V c main_v1) (V c main_v0) (V c main_v2)) := by
  have hlt : t.val < 128 := lt_of_lt_of_eq t.isLt (show cfg2.N = 128 from N_2)
  have h31 : t.val % 32 = 31 := (flush2_3 t).mp hf
  show (cfg2.win 3).cut (grid2.coords t) ((dat2 V c).after 3 t) = _
  rw [after2_3]
  obtain ⟨e0, e1, e2, e3, e4, e5, e6, e7⟩ := idx_facts2 t
  funext j
  obtain ⟨p, q, rfl⟩ : ∃ (p : Fin 2048) (q : Fin 1024), j = ix2 p q := ⟨j 0, j 1, eq_ix2 j⟩
  show outsAt2 V c t.val t.isLt (ix2 p q) = outG (V c main_v1) (V c main_v0) (V c main_v2) (((cfg2.win 3).blk t).view.emb (ix2 p q))
  have ht : 32 * (t.val / 32) + 31 = t.val := by omega
  have ha : t.val / 32 < 4 := by omega
  have same : ∀ (u : ℕ) (hu : u < cfg2.N), u = t.val → outsAt2 V c u hu = outsAt2 V c t.val t.isLt := fun u hu e => by subst e; rfl
  rw [← same (32 * (t.val / 32) + 31) (by rw [ht]; exact t.isLt) ht, outs_fold V c (t.val / 32) ha p q 31 (by omega) _, sum_contrib2]
  unfold outG
  have hn : (((cfg2.win 3).blk t).view.emb (ix2 p q)) 0 = (⟨2048 * (t.val / 32) + p.val, by have := p.isLt; omega⟩ : Fin 8192) :=
    Fin.ext (by show win2_3.index t (0 : Fin 2) * 2048 + 1 * p.val = 2048 * (t.val / 32) + p.val; rw [e6]; omega)
  have hk : (((cfg2.win 3).blk t).view.emb (ix2 p q)) 1 = q :=
    Fin.ext (by show win2_3.index t (1 : Fin 2) * 1024 + 1 * q.val = q.val; rw [e7]; omega)
  rw [hn, hk]

/-- An index of the result lies in point t's block exactly when, axis by axis, it lies in the block's range. -/
theorem out_mem_blk (t : Fin cfg2.N) (i : S8192x1024.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v3).slice (win2_3.rect t)).set ↔ _
  rw [View.set_slice_whole, Rect.mem_set_unit]
  exact Iff.rfl

/-- Every entry of the result is written back by the last inner point of the block that owns its row. -/
theorem out_covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 128 := N_2
  refine ⟨⟨32 * ((i 0).val / 2048) + 31, by rw [hN]; omega⟩, (flush2_3 _).mpr (by show (32 * ((i 0).val / 2048) + 31) % 32 = 31; omega), ?_⟩
  rw [out_mem_blk]
  obtain ⟨e0, e1, e2, e3, e4, e5, e6, e7⟩ := idx_facts2 ⟨32 * ((i 0).val / 2048) + 31, by rw [hN]; omega⟩
  intro a
  match a with
  | ⟨0, _⟩ =>
    show win2_3.index _ (0 : Fin 2) * 2048 ≤ (i 0).val ∧ (i 0).val < win2_3.index _ (0 : Fin 2) * 2048 + 2048
    rw [e6]; show (32 * ((i 0).val / 2048) + 31) / 32 * 2048 ≤ (i 0).val ∧ (i 0).val < (32 * ((i 0).val / 2048) + 31) / 32 * 2048 + 2048; omega
  | ⟨1, _⟩ =>
    show win2_3.index _ (1 : Fin 2) * 1024 ≤ (i 1).val ∧ (i 1).val < win2_3.index _ (1 : Fin 2) * 1024 + 1024
    rw [e7]; omega

/-- The result array after the pass is the whole-array function of the arrays it was entered with. -/
theorem out_final (c : Dev nD) :
    (dat2 (F := Ideal) V c).arrAt 3 cfg2.N = outG (V c main_v1) (V c main_v0) (V c main_v2) :=
  (dat2 (F := Ideal) V c).arrAt_eq_of_cover 3 (outG (V c main_v1) (V c main_v0) (V c main_v2)) (fun t hf => out_flushed_eq V c t hf) out_covered

/-- Entry (n, k) of the result after the pass: the sum over all key rows of their terms. -/
theorem out_value (c : Dev nD) (n : Fin 8192) (k : Fin 1024) :
    (dat2 (F := Ideal) V c).arrAt 3 cfg2.N (ix2 n k)
      = ∑ m : Fin 8192, term2 (V c main_v1) (V c main_v0) (V c main_v2) n k m := by
  rw [out_final]; rfl

/-- The same with the three arrays named as extended-real functions: entry (n, k) is
    Σ_m exp(Σ_k' a1(n, k') · a0(m, k') - a2(0, m)) · a0(m, k). -/
theorem out_value_of (c : Dev nD) (a1 a0 : S8192x1024.Idx → EReal) (a2 : S1x8192.Idx → EReal)
    (h1 : V c main_v1 = a1) (h0 : V c main_v0 = a0) (h2 : V c main_v2 = a2) (n : Fin 8192) (k : Fin 1024) :
    (dat2 (F := Ideal) V c).arrAt 3 cfg2.N (ix2 n k)
      = ∑ m : Fin 8192, Ideal.exp ((∑ k' : Fin 1024, a1 (ix2 (n0 := 8192) (n1 := 1024) n k') * a0 (ix2 (n0 := 8192) (n1 := 1024) m k'))
          - a2 (ix2 (n0 := 1) (n1 := 8192) (0 : Fin 1) m)) * a0 (ix2 (n0 := 8192) (n1 := 1024) m k) := by
  subst h1 h0 h2
  rw [out_value]; rfl

end Cert.KernelIdeal.Hand

end
-- ==== Proof.ChainA.lean ====
/-
  What the buffers hold on entry to each pass, read off the chain of valuations between the program's four steps.

  The host cast writes only the narrow copy of h, so the other two arguments enter the first pass as launched, and on
  the extended reals the narrow copy is h itself. The first pass writes only the projected queries, which therefore
  hold the product of y and W; the second and third passes only read the projected queries and the narrow copy, so
  both enter the third pass unchanged. Each pass's output array is what its pipeline's write-backs leave.
-/
import proofs.«125493_j42185168781604_2_alg».proof.Proof.Run
import proofs.«125493_j42185168781604_2_alg».proof.Proof.Value0
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg)

/-! ## After the host cast -/

/-- The host cast writes only the narrow copy of h: any other buffer is as launched. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W1_arg0 (c : Dev nD) : W1 m ρ c (Proc.devRef .tc main_arg0) = m ((c : Thread nD τ).loc main_arg0) :=
  (W1_of_ne m ρ c main_arg0 (by decide)).trans rfl

theorem W1_arg2 (c : Dev nD) : W1 m ρ c (Proc.devRef .tc main_arg2) = m ((c : Thread nD τ).loc main_arg2) :=
  (W1_of_ne m ρ c main_arg2 (by decide)).trans rfl

/-- The narrow copy of h is h: rounding to the narrower format is the identity on the extended reals. -/
theorem W1_v0 (c : Dev nD) :
    asE (S := S8192x1024) (W1 m ρ c (Proc.devRef .tc main_v0)) = asE (S := S8192x1024) (m ((c : Thread nD τ).loc main_arg1)) := by
  show asE (S := S8192x1024) (StableHlo.after hostOps0 (W0 m ρ c) (Proc.devRef .tc main_v0)) = _
  after_results
  rfl

/-! ## After the first pass -/

/-- The projected queries after the first pass: the product of y and W as launched. -/
theorem V2_v1 (c : Dev nD) :
    asE (S := S8192x1024) (V2 m ρ c main_v1)
      = ywG (asE (S := S8192x1024) (m ((c : Thread nD τ).loc main_arg0))) (asE (S := S1024x1024) (m ((c : Thread nD τ).loc main_arg2))) := by
  show asE (S := S8192x1024) (W2 m ρ c (Proc.devRef .tc (Pipeline.arrRef spec0 2))) = _
  rw [W2_arr, ywFinal (V1 m ρ) c]
  show ywG (W1 m ρ c (Proc.devRef .tc main_arg0)) (W1 m ρ c (Proc.devRef .tc main_arg2)) = _
  rw [W1_arg0, W1_arg2]

/-- The first pass does not touch the narrow copy of h. -/
theorem V2_v0 (c : Dev nD) : V2 m ρ c main_v0 = V1 m ρ c main_v0 := W2_of_ne m ρ c main_v0 (by decide)

/-! ## After the second pass -/

/-- The second pass only reads the projected queries … -/
theorem V3_v1 (c : Dev nD) : V3 m ρ c main_v1 = V2 m ρ c main_v1 :=
  (W3_arr m ρ c 0).trans (((dat1 (V2 m ρ) c).arrAt_in 0 rfl _).trans (A_eq1 (V2 m ρ) c 0))

/-- … and the narrow copy of h. -/
theorem V3_v0 (c : Dev nD) : V3 m ρ c main_v0 = V2 m ρ c main_v0 :=
  (W3_arr m ρ c 1).trans (((dat1 (V2 m ρ) c).arrAt_in 1 rfl _).trans (A_eq1 (V2 m ρ) c 1))

/-- The row of normalizers is what the second pass's write-backs leave. -/
theorem V3_v2 (c : Dev nD) : V3 m ρ c main_v2 = (dat1 (V2 m ρ) c).arrAt 2 cfg1.N := W3_arr m ρ c 2

/-! ## After the third pass -/

/-- The result array is what the third pass's write-backs leave. -/
theorem W4_v3 (c : Dev nD) : W4 m ρ c (Proc.devRef .tc main_v3) = (dat2 (V3 m ρ) c).arrAt 3 cfg2.N := W4_arr m ρ c 3

/-! ## What the third pass is entered with -/

/-- The projected queries on entry to the third pass: the product of y and W as launched. -/
theorem entry_v1 (c : Dev nD) :
    asE (S := S8192x1024) (V3 m ρ c main_v1)
      = ywG (asE (S := S8192x1024) (m ((c : Thread nD τ).loc main_arg0))) (asE (S := S1024x1024) (m ((c : Thread nD τ).loc main_arg2))) := by
  rw [V3_v1]; exact V2_v1 m ρ c

/-- The narrow copy of h on entry to the third pass: h as launched. -/
theorem entry_v0 (c : Dev nD) :
    asE (S := S8192x1024) (V3 m ρ c main_v0) = asE (S := S8192x1024) (m ((c : Thread nD τ).loc main_arg1)) := by
  rw [V3_v0, V2_v0]; exact W1_v0 m ρ c

end Cert.KernelIdeal.Hand

end
-- ==== Proof.RefValue.lean ====
/-
  What the reference computes, index by index, on the extended reals.

  From the three argument arrays y, h (8192 × 1024) and w (1024 × 1024) the reference forms the scores
      S(n, m) = Σ_{k'} (Σ_d w(d, k') · y(n, d)) · h(m, k')          (row n, column m; 8192 × 8192),
  takes each COLUMN's maximum over the rows, folded from −∞ and compared with −∞ once more,
      mx(m) = max(−∞, max_{n'} S(n', m)),
  exponentiates the shifted scores, sums each column from zero, divides, and multiplies by h:
      result(n, k) = Σ_m  exp(S(n, m) − mx(m)) / (0 + Σ_{n'} exp(S(n', m) − mx(m)))  ·  h(m, k).
  Every step but the column maximum is read at an index from the generated per-operation lemmas; the column
  maximum is a reduction over one axis with a commutative associative body, hence the fold of that body over the
  axis's coordinates. The last theorems restate the reference's run with this function as its result.
-/
import proofs.«125493_j42185168781604_2_alg».proof.Defs
import proofs.«125493_j42185168781604_2_alg».proof.Proof.Gen.ReferenceIdeal.Read
import proofs.«125493_j42185168781604_2_alg».proof.Proof.Gen.Pre_finite_inputs

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

/-! ## The function -/

/-- The score of row n against column m: Σ_{k'} (Σ_d w(d, k') · y(n, d)) · h(m, k'). -/
def S (y h : (⟨2, ![8192, 1024]⟩ : Shape).Idx → EReal) (w : (⟨2, ![1024, 1024]⟩ : Shape).Idx → EReal) (n m : Fin 8192) : EReal :=
  ∑ k' : Fin 1024, (∑ d : Fin 1024, w (ix2 d k') * y (ix2 n d)) * h (ix2 m k')

/-- Column m's maximum score over all rows, folded from −∞ and compared with −∞ once more. -/
def mx (y h : (⟨2, ![8192, 1024]⟩ : Shape).Idx → EReal) (w : (⟨2, ![1024, 1024]⟩ : Shape).Idx → EReal) (m : Fin 8192) : EReal :=
  max (⊥ : EReal) ((Finset.univ : Finset (Fin 8192)).fold max (⊥ : EReal) (fun n' => S y h w n' m))

/-- The reference's result: at (n, k), the sum over the columns m of the score's weight within its column
    (exponential of the score shifted by the column's maximum, over the column's sum of those, summed from zero)
    times h(m, k). -/
def refG (y h : (⟨2, ![8192, 1024]⟩ : Shape).Idx → EReal) (w : (⟨2, ![1024, 1024]⟩ : Shape).Idx → EReal) :
    (⟨2, ![8192, 1024]⟩ : Shape).Idx → EReal := fun i =>
  ∑ m : Fin 8192, Ideal.div (Ideal.exp (S y h w (i 0) m - mx y h w m))
    ((0 : EReal) + ∑ n' : Fin 8192, Ideal.exp (S y h w n' m - mx y h w m)) * h (ix2 m (i 1))

/-! ## Each stage at an index -/

section Stages

variable (y h : (⟨S8192x1024, .f32⟩ : BufTy).Contents (Elt Ideal)) (w : (⟨S1024x1024, .f32⟩ : BufTy).Contents (Elt Ideal))

/-- The two products compose to the score. -/
theorem v1_at (n m : Fin 8192) : val_main_v1 (F := Ideal) y h w (ix2 n m) = S y h w n m := by
  rw [val_main_v1_apply]
  unfold S
  refine Finset.sum_congr rfl fun k' _ => ?_
  rw [val_main_v0_apply]
  have e1 : ∀ d : Fin 1024, lidx_main_v0 (lidx_main_v1 (ix2 n m) k') d = ix2 d k' := fun d =>
    funext fun a => Fin.ext (by match a with | ⟨0, _⟩ => rfl | ⟨1, _⟩ => rfl)
  have e2 : ∀ d : Fin 1024, ridx_main_v0 (lidx_main_v1 (ix2 n m) k') d = ix2 n d := fun d =>
    funext fun a => Fin.ext (by match a with | ⟨0, _⟩ => rfl | ⟨1, _⟩ => rfl)
  have e3 : ridx_main_v1 (ix2 n m) k' = ix2 m k' :=
    funext fun a => Fin.ext (by match a with | ⟨0, _⟩ => rfl | ⟨1, _⟩ => rfl)
  simp only [e1, e2, e3]

/-- The score matrix loses its row axis under the reduction. -/
theorem red0 : S8192x8192.Reduces [0] S8192 := by decide

/-- Column m with row k put back is the entry (k, m). -/
theorem lift_at (m : Fin 8192) (k : Fin (S8192x8192.size 0)) :
    red0.lift (ix1 m) k = ix2 (⟨k.val, k.isLt⟩ : Fin 8192) m := by
  funext c; apply Fin.ext
  fin_cases c <;> rfl

/-- The word of −∞. -/
theorem ofBits_ninf : Ideal.ofBits .f32 0xFF800000#32 = (⊥ : EReal) := by simp [Ideal.ofBits, Ideal.ieee]

/-- The maximum-reduction over the rows is, at column m, the maximum folded from −∞ over the rows' scores. -/
theorem v2_at (m : Fin 8192) :
    val_main_v2 (F := Ideal) y h w (ix1 m) = (Finset.univ : Finset (Fin 8192)).fold max (⊥ : EReal) (fun n' => S y h w n' m) := by
  unfold val_main_v2
  rw [Host.reduce_eq_fold_single (FloatOps.maximumf (F := Ideal) (φ := .f32)) _ _ _ red0 _]
  have hf : (val_main_v1 (F := Ideal) y h w ∘ red0.lift (ix1 m)) = fun n' : Fin 8192 => S y h w n' m :=
    funext fun k => (congrArg (val_main_v1 (F := Ideal) y h w) (lift_at m k)).trans (v1_at y h w _ m)
  have hi : (val_main_cst (F := Ideal)) (Shape.Idx.first h_S_) = (⊥ : EReal) := ofBits_ninf
  rw [hi, hf]
  rfl

/-- Compared with −∞ once more: the column's maximum as the function spells it. -/
theorem v4_at (m : Fin 8192) : val_main_v4 (F := Ideal) y h w (ix1 m) = mx y h w m := by
  rw [val_main_v4_apply, val_main_v3_apply, val_main_cst_0_apply, v2_at]
  simp only [Ideal.maximumf_def, Ideal.ofBits_def, ofBits_ninf]
  rfl

/-- The exponential of the score shifted by its column's maximum. -/
theorem v8_at (n m : Fin 8192) :
    val_main_v8 (F := Ideal) y h w (ix2 n m) = Ideal.exp (S y h w n m - mx y h w m) := by
  have e : idx_main_v5 (idx_main_v6 (ix2 n m)) = ix1 m := funext fun a => Fin.ext (by match a with | ⟨0, _⟩ => rfl)
  rw [val_main_v8_apply, val_main_v7_apply, val_main_v6_apply, val_main_v5_apply, e, v4_at, v1_at]
  simp only [Ideal.hostUnary_exp_def, Ideal.subf_def]

/-- The column's sum of those exponentials, from zero. -/
theorem v9_at (m : Fin 8192) :
    val_main_v9 (F := Ideal) y h w (ix1 m) = (0 : EReal) + ∑ n' : Fin 8192, Ideal.exp (S y h w n' m - mx y h w m) := by
  rw [val_main_v9_apply, val_main_cst_1_apply, Ideal.ofBits_def, Ideal.ofBits_zero_f32]
  refine congrArg (_ + ·) (Finset.sum_congr rfl fun k _ => ?_)
  have e : idx_main_v9 (ix1 m) k = ix2 k m := funext fun a => Fin.ext (by match a with | ⟨0, _⟩ => rfl | ⟨1, _⟩ => rfl)
  rw [e, v8_at]

/-- The weight of the score within its column. -/
theorem v12_at (n m : Fin 8192) :
    val_main_v12 (F := Ideal) y h w (ix2 n m) = Ideal.div (Ideal.exp (S y h w n m - mx y h w m))
      ((0 : EReal) + ∑ n' : Fin 8192, Ideal.exp (S y h w n' m - mx y h w m)) := by
  have e : idx_main_v10 (idx_main_v11 (ix2 n m)) = ix1 m := funext fun a => Fin.ext (by match a with | ⟨0, _⟩ => rfl)
  rw [val_main_v12_apply, val_main_v11_apply, val_main_v10_apply, e, v9_at, v8_at, Ideal.hostDivf_def]

/-- THE REFERENCE'S VALUE: the last product's term is the function above. -/
theorem ref_is_refG : val_main_v13 (F := Ideal) y h w = refG y h w := by
  funext i
  obtain ⟨n, k, rfl⟩ : ∃ (n : Fin 8192) (k : Fin 1024), i = ix2 n k := ⟨i 0, i 1, eq_ix2 i⟩
  rw [val_main_v13_apply]
  change _ = ∑ m : Fin 8192, Ideal.div (Ideal.exp (S y h w n m - mx y h w m))
    ((0 : EReal) + ∑ n' : Fin 8192, Ideal.exp (S y h w n' m - mx y h w m)) * h (ix2 m k)
  refine Finset.sum_congr rfl fun m _ => ?_
  have e1 : lidx_main_v13 (ix2 n k) m = ix2 n m := funext fun a => Fin.ext (by match a with | ⟨0, _⟩ => rfl | ⟨1, _⟩ => rfl)
  have e2 : ridx_main_v13 (ix2 n k) m = ix2 m k := funext fun a => Fin.ext (by match a with | ⟨0, _⟩ => rfl | ⟨1, _⟩ => rfl)
  rw [e1, e2, v12_at]

end Stages

/-! ## The run -/

/-- Every weakly fair execution of the reference terminates with its result array at the function above of the
    launch's argument arrays, and the arguments unchanged. -/
theorem run_refG (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
        = refG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ hr c => ⟨(hr c).1.trans ((val_main_v13_eq _ _ _).trans (ref_is_refG _ _ _)), (hr c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ hr c => (hr c).2) (Cert.ReferenceIdeal.Value.run (F := Ideal) m ρ)

end Cert.ReferenceIdeal.RefValue

end
-- ==== Proof.Bridge.lean ====
/-
  The three-pass computation equals the reference, entry by entry.

  With real argument arrays y, h, w every score S(n, m) = Σ_{k'} (Σ_d w(d,k')·y(n,d))·h(m,k') is a real number: a
  finite sum of products of reals. The three-pass side forms the same numbers with its factors in the other order
  (y·w first, then against h from either side); products of reals commute, so all three spellings are the one real
  score. For a fixed column m the second pass hands over a running shift and a running normaliser over the column's
  8192 scores in 16 blocks of 512, and their final combination M + log L. The invariant of such a pair makes
  exp(score − (M + log L)) the score's weight within the column, and that weight does not depend on the shift, so it
  equals the reference's weight, which shifts the column by its maximum (a real number, there being at least one
  score). Multiplying by h(m, k) and summing over the columns m gives the reference's entry (n, k).
-/
import proofs.«125493_j42185168781604_2_alg».proof.Proof.RefValue
import proofs.«125493_j42185168781604_2_alg».proof.Proof.OnlineLse

noncomputable section

open scoped BigOperators

namespace Cert.Bridge

open Idealize.ShloMosaic Idealize.ShloMosaic.ValueIdx Cert.ReferenceIdeal.RefValue Cert.Lib.SoftmaxShift Cert.OnlineLse

/-- With real arguments the scores are real, and the three ways the two sides spell a score — the reference's
    (w·y)·h, the second pass's h·(y·w) and the third pass's (y·w)·h — are one real number. -/
theorem scores_real (y h : (⟨2, ![8192, 1024]⟩ : Shape).Idx → EReal) (w : (⟨2, ![1024, 1024]⟩ : Shape).Idx → EReal)
    (hy : ∀ i, ∃ r : ℝ, y i = (r : EReal)) (hh : ∀ i, ∃ r : ℝ, h i = (r : EReal)) (hw : ∀ i, ∃ r : ℝ, w i = (r : EReal))
    (yw : (⟨2, ![8192, 1024]⟩ : Shape).Idx → EReal)
    (hK0 : ∀ (n : Fin 8192) (k' : Fin 1024), yw (ix2 n k') = ∑ d : Fin 1024, y (ix2 n d) * w (ix2 d k')) :
    ∃ sr : Fin 8192 → Fin 8192 → ℝ,
      (∀ n m : Fin 8192, S y h w n m = (sr n m : EReal))
      ∧ (∀ m n : Fin 8192, (∑ k' : Fin 1024, h (ix2 m k') * yw (ix2 n k')) = (sr n m : EReal))
      ∧ (∀ n m : Fin 8192, (∑ k' : Fin 1024, yw (ix2 n k') * h (ix2 m k')) = (sr n m : EReal)) := by
  choose yr hyr using hy
  choose hr hhr using hh
  choose wr hwr using hw
  have hyw : ∀ (n : Fin 8192) (k' : Fin 1024),
      yw (ix2 n k') = ((∑ d : Fin 1024, yr (ix2 n d) * wr (ix2 d k') : ℝ) : EReal) := by
    intro n k'
    rw [hK0]
    simp only [hyr, hwr]
    exact coe_sum_mul _ _ _
  refine ⟨fun n m => ∑ k' : Fin 1024, (∑ d : Fin 1024, yr (ix2 n d) * wr (ix2 d k')) * hr (ix2 m k'),
    fun n m => ?_, fun m n => ?_, fun n m => ?_⟩
  · unfold S
    have hin : ∀ k' : Fin 1024, (∑ d : Fin 1024, w (ix2 d k') * y (ix2 n d))
        = ((∑ d : Fin 1024, yr (ix2 n d) * wr (ix2 d k') : ℝ) : EReal) := by
      intro k'
      simp only [hyr, hwr]
      rw [coe_sum_mul]
      exact congrArg _ (Finset.sum_congr rfl fun d _ => mul_comm _ _)
    simp only [hin, hhr]
    exact coe_sum_mul _ _ _
  · simp only [hhr, hyw]
    rw [coe_sum_mul]
    exact congrArg _ (Finset.sum_congr rfl fun k' _ => mul_comm _ _)
  · simp only [hhr, hyw]
    exact coe_sum_mul _ _ _

/-- THE BRIDGE. Given what the three passes compute — the first product (K0), per column the running shift and
    normaliser over 16 blocks of 512 scores with the stored M + log L (K1), and the third pass's sum over the columns
    (K2) — each output entry is the reference's. -/
theorem kernel_eq_ref (y h : (⟨2, ![8192, 1024]⟩ : Shape).Idx → EReal) (w : (⟨2, ![1024, 1024]⟩ : Shape).Idx → EReal)
    (hy : ∀ i, ∃ r : ℝ, y i = (r : EReal)) (hh : ∀ i, ∃ r : ℝ, h i = (r : EReal)) (hw : ∀ i, ∃ r : ℝ, w i = (r : EReal))
    (yw : (⟨2, ![8192, 1024]⟩ : Shape).Idx → EReal) (lse : (⟨2, ![1, 8192]⟩ : Shape).Idx → EReal)
    (kout : Fin 8192 → Fin 1024 → EReal)
    (hK0 : ∀ (n : Fin 8192) (k' : Fin 1024), yw (ix2 n k') = ∑ d : Fin 1024, y (ix2 n d) * w (ix2 d k'))
    (hK1 : (∀ m n : Fin 8192, ∃ r : ℝ, (∑ k' : Fin 1024, h (ix2 m k') * yw (ix2 n k')) = (r : EReal)) →
      ∀ m : Fin 8192, ∃ (s : ℕ → ℝ) (M : ℕ → ℝ) (L : ℕ → EReal),
        (∀ n : Fin 8192, (∑ k' : Fin 1024, h (ix2 m k') * yw (ix2 n k')) = (s n.val : EReal))
        ∧ L 0 = 0
        ∧ (∀ j, j < 16 → L (j + 1) = L j * Ideal.exp ((M j : EReal) - (M (j + 1) : EReal))
            + ∑ i : Fin 512, Ideal.exp ((s (512 * j + i.val) : EReal) - (M (j + 1) : EReal)))
        ∧ lse (ix2 (0 : Fin 1) m) = (M 16 : EReal) + Ideal.log (L 16))
    (hK2 : ∀ (n : Fin 8192) (k : Fin 1024), kout n k = ∑ m : Fin 8192,
        Ideal.exp ((∑ k' : Fin 1024, yw (ix2 n k') * h (ix2 m k')) - lse (ix2 (0 : Fin 1) m)) * h (ix2 m k))
    (n : Fin 8192) (k : Fin 1024) : kout n k = refG y h w (ix2 n k) := by
  obtain ⟨sr, hS, hs1, hs3⟩ := scores_real y h w hy hh hw yw hK0
  rw [hK2]
  change _ = ∑ m : Fin 8192, Ideal.div (Ideal.exp (S y h w n m - mx y h w m))
    ((0 : EReal) + ∑ n' : Fin 8192, Ideal.exp (S y h w n' m - mx y h w m)) * h (ix2 m k)
  refine Finset.sum_congr rfl fun m _ => ?_
  obtain ⟨s, M, L, hs, h0, hstep, hlse⟩ := hK1 (fun m n => ⟨sr n m, hs1 m n⟩) m
  obtain ⟨Mx, hMx⟩ := rowMax_real (K := 8192) (by norm_num) (fun n' => sr n' m)
  have hsn : ∀ n' : Fin 8192, S y h w n' m = (s n'.val : EReal) := fun n' =>
    (hS n' m).trans ((hs1 m n').symm.trans (hs n'))
  have hmx : mx y h w m = (Mx : EReal) := by
    unfold mx
    simp only [hS]
    exact hMx
  rw [hs3, ← hS, hlse, hmx]
  simp only [hsn]
  rw [weight_of_running' 16 512 8192 rfl (by norm_num) s M L h0 hstep Mx n]

end Cert.Bridge

end
-- ==== Proof.LibRealEntry.lean ====
/-
  Which extended reals pass the test "|x| < +∞": exactly the real numbers. At −∞ and at +∞ the absolute value
  max(x, −x) is +∞, which is not below +∞; at a real number it is a real number, which is.
-/
import Idealize.ShloMosaic.PureOps.Ideal.Laws

noncomputable section

namespace Cert.Lib.RealEntry

open Idealize.ShloMosaic

/-- An extended real whose absolute value compares below the single-precision +∞ pattern is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

end Cert.Lib.RealEntry

end
-- ==== Proof.Finite.lean ====
/-
  The precondition says every entry of the three argument arrays is a real number.

  The printed predicate tests, for each argument array, whether every entry x has |x| < +∞ (absolute value,
  comparison with the +∞ word, then an "and" over all entries from the constant true), and conjoins the three
  answers. If the conjunction is true, each of the three "and"s is true; an "and" over all entries that is true met
  a true at every entry; and an extended real whose absolute value is below +∞ is a real number.
-/
import proofs.«125493_j42185168781604_2_alg».proof.Pre_finite_inputs
import proofs.«125493_j42185168781604_2_alg».proof.Proof.LibRealEntry
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The shape with no axis has one index. -/
instance : Subsingleton S_.Idx := ⟨fun _ _ => funext fun d => d.elim0⟩

/-- One entry: if the test "|x| < +∞" of an array answers true at index i, the entry there is a real number. -/
theorem entry_real {s : Shape} (x : FVec Ideal s .f32) (bc : S_.BroadcastsInDim s (![] : Fin 0 → Fin s.rank)) (i : s.Idx)
    (he : cmpf .olt (Host.absf x) (broadcastInDim s ![] bc (constant (F := Ideal) S_ .f32 0x7F800000#32)) i = 1#1) :
    ∃ r : ℝ, x i = (r : EReal) :=
  Cert.Lib.RealEntry.real_of_abs_lt_inf (x i) he

variable [Cert.Pre_finite_inputs.Facts]

/-- THE PRECONDITION READ BACK: if the predicate of the three argument arrays is all ones, every entry of each is a
    real number. -/
theorem reals_of_pre (y h : FVec Ideal S8192x1024 .f32) (w : FVec Ideal S1024x1024 .f32)
    (hp : Cert.Pre_finite_inputs.fn (F := Ideal) y h w = (fun _ => 1#1)) :
    (∀ i, ∃ r : ℝ, y i = (r : EReal)) ∧ (∀ i, ∃ r : ℝ, h i = (r : EReal)) ∧ (∀ i, ∃ r : ℝ, w i = (r : EReal)) := by
  have h0 := congrFun hp ValueIdx.ix0
  dsimp only [Cert.Pre_finite_inputs.fn] at h0
  obtain ⟨h01, hw⟩ := IntOp.andi_eq_one.1 h0
  obtain ⟨hy, hh⟩ := IntOp.andi_eq_one.1 h01
  refine ⟨fun i => ?_, fun i => ?_, fun i => ?_⟩
  · exact entry_real y _ i (Host.reduce_andi_all _ _ _ _ _ hy i)
  · exact entry_real h _ i (Host.reduce_andi_all _ _ _ _ _ hh i)
  · exact entry_real w _ i (Host.reduce_andi_all _ _ _ _ _ hw i)

end Cert.Finite

end
-- ==== Proof.Chain.lean ====
/-
  The result array the kernel ends with is the reference's function of the three arguments.

  The third pass leaves in the result array, entry (n, k), the sum over m of exp(score(n, m) − lse(m)) · h(m, k), where
  on entry to that pass the first operand holds y·W (left by the first pass), the second holds h (the host cast is the
  identity on the extended reals) and the third holds, for each m, the value the second pass's sixteen-step running
  shift and running sum end at. With every input entry a real number, every score is a real number, the running sum
  after sixteen steps is Σ_n exp(score(n, m) − shift), and shift + log of it is log Σ_n exp(score(n, m)) whatever the
  shifts were; so exp(score(n, m) − lse(m)) is the softmax weight over the query axis, which is what the reference
  multiplies h by.
-/
import proofs.«125493_j42185168781604_2_alg».proof.Proof.Gen.KernelIdeal.Launch
import proofs.«125493_j42185168781604_2_alg».proof.Proof.Gen.KernelIdeal.Skeleton
import proofs.«125493_j42185168781604_2_alg».proof.Proof.Gen.KernelIdeal.Points
import proofs.«125493_j42185168781604_2_alg».proof.Proof.Run
import proofs.«125493_j42185168781604_2_alg».proof.Proof.Value0
import proofs.«125493_j42185168781604_2_alg».proof.Proof.Value1
import proofs.«125493_j42185168781604_2_alg».proof.Proof.Value2
import proofs.«125493_j42185168781604_2_alg».proof.Proof.ChainA
import proofs.«125493_j42185168781604_2_alg».proof.Proof.Bridge
import proofs.«125493_j42185168781604_2_alg».proof.Proof.Finite
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg)

/-- Under the precondition (every input entry finite) the result array after the run is the reference's function of
    the arguments as launched. -/
theorem result_eq (c : Dev nD)
    (hpre : Cert.Pre_finite_inputs.fn (F := Ideal) (m ((c : Thread nD τ).loc main_arg0)) (m ((c : Thread nD τ).loc main_arg1)) (m ((c : Thread nD τ).loc main_arg2)) = (fun _ => 1#1)) :
    W4 m ρ c (Proc.devRef .tc main_v3)
      = Cert.ReferenceIdeal.RefValue.refG (m ((c : Thread nD τ).loc main_arg0)) (m ((c : Thread nD τ).loc main_arg1)) (m ((c : Thread nD τ).loc main_arg2)) := by
  obtain ⟨hy, hh, hw⟩ := Cert.Finite.reals_of_pre _ _ _ hpre
  funext i
  obtain ⟨n, k, rfl⟩ : ∃ (n : Fin 8192) (k : Fin 1024), i = ix2 n k := ⟨i 0, i 1, eq_ix2 i⟩
  rw [W4_v3]
  refine (out_value_of (V3 m ρ) c _ _ (asE (S := S1x8192) (V3 m ρ c main_v2)) (entry_v1 m ρ c) (entry_v0 m ρ c) rfl n k).trans ?_
  refine Cert.Bridge.kernel_eq_ref _ _ _ hy hh hw
    (ywG (asE (S := S8192x1024) (m ((c : Thread nD τ).loc main_arg0))) (asE (S := S1024x1024) (m ((c : Thread nD τ).loc main_arg2))))
    (asE (S := S1x8192) (V3 m ρ c main_v2))
    (fun n k => ∑ m' : Fin 8192, Ideal.exp ((∑ k' : Fin 1024,
        ywG (asE (S := S8192x1024) (m ((c : Thread nD τ).loc main_arg0))) (asE (S := S1024x1024) (m ((c : Thread nD τ).loc main_arg2))) (ix2 n k')
          * asE (S := S8192x1024) (m ((c : Thread nD τ).loc main_arg1)) (ix2 m' k'))
        - asE (S := S1x8192) (V3 m ρ c main_v2) (ix2 (0 : Fin 1) m')) * asE (S := S8192x1024) (m ((c : Thread nD τ).loc main_arg1)) (ix2 m' k))
    (fun _ _ => rfl) ?_ (fun _ _ => rfl) n k
  intro hreal mm
  have hv0 : asE (S := S8192x1024) (V2 m ρ c main_v0) = asE (S := S8192x1024) (m ((c : Thread nD τ).loc main_arg1)) := by
    rw [V2_v0]; exact W1_v0 m ρ c
  have hv1 := V2_v1 m ρ c
  have hl := lse_value (V2 m ρ) c (by rw [hv0, hv1]; exact hreal) mm
  rw [hv0, hv1] at hl
  rw [V3_v2]
  exact hl

end Cert.KernelIdeal.Hand

end
-- ==== Proof.lean ====
/-
  A three-pass kernel against its one-line reference, equal on the extended reals.

  Both programs compute, for queries y (8192 rows), keys and values h (8192 rows) and a square matrix W,
      out[n, k] = Σ_m  z[n, m] · h[m, k],     z[n, m] = exp(s[n, m]) / Σ_n' exp(s[n', m]),     s = (y·W)·hᵀ,
  a softmax over the QUERY axis n followed by a weighted sum over m.

  The reference forms the scores s, subtracts each column's maximum over n (found by a reduction from −∞), exponentiates,
  divides by the column sums, and multiplies by h. The kernel works in three passes over blocks: first y·W; then, for each
  m, the logarithm of Σ_n exp(s[n, m]), accumulated over sixteen blocks of 512 values of n with a running shift M (a
  running maximum started from a large negative FINITE number) and a running sum L rescaled by exp(M_old − M_new) each
  time the shift moves, ending at lse[m] = M + log L; finally out = Σ_m exp(s[n, m] − lse[m]) · h[m, k], accumulated over
  thirty-two blocks of 256 values of m in the output block itself.

  Why they agree. On the reals the value M + log Σ_n exp(s_n − M) does not depend on M: it is log Σ_n exp(s_n). The
  rescaling step keeps L equal to Σ exp(s_n − M) over the values seen so far for ANY sequence of real shifts, so neither
  the finite starting value nor the running maxima matter, only that each shift is a real number; and
  exp(s − log Σ exp(s_n)) = exp(s) / Σ exp(s_n), which is also exp(s − c) / Σ exp(s_n − c) for the reference's column
  maximum c. All of this needs every score to be a real number, which holds because every input entry is (the
  precondition): on the extended reals a sum of products of reals is real, while an infinite score would break the
  cancellations. The remaining differences — roundings to a narrower float format, matrix products taken block by block,
  sums taken in a different order — are identities on the extended reals.

  Each program also runs to the end without a fault and leaves its arguments untouched: for the kernel, read at the
  word level and at the extended reals, from the per-pass runs chained through the host cast; for the reference from
  its run.
-/
import proofs.«125493_j42185168781604_2_alg».proof.Defs
import proofs.«125493_j42185168781604_2_alg».proof.Proof.Gen.Kernel
import proofs.«125493_j42185168781604_2_alg».proof.Proof.Gen.KernelIdeal
import proofs.«125493_j42185168781604_2_alg».proof.Proof.Gen.ReferenceIdeal
import proofs.«125493_j42185168781604_2_alg».proof.Proof.Gen.Pre_finite_inputs
import proofs.«125493_j42185168781604_2_alg».proof.Proof.KRun
import proofs.«125493_j42185168781604_2_alg».proof.Proof.Chain

noncomputable section

namespace Cert.Proof

open Idealize.ShloMosaic Idealize.SL.Sem

/-- The kernel at the word level runs, faults nowhere, and leaves its arguments as launched. -/
theorem frame_k : Cert.frame_Kernel := fun m ρ _ =>
  (θ_run (Cert.Kernel.defs (F := Bits)) _ _).mono (fun _ h c => (h c).2) (Cert.Kernel.Hand.run (F := Bits) m ρ)

/-- The same for the kernel read on the extended reals. -/
theorem frame_ki : Cert.frame_KernelIdeal := fun m ρ _ =>
  (θ_run (Cert.KernelIdeal.defs (F := Ideal)) _ _).mono (fun _ h c => (h c).2) (Cert.KernelIdeal.Hand.run (F := Ideal) m ρ)

/-- On the extended reals, from memories that agree on the three arguments, both programs end with the same result:
    the kernel's third pass leaves the reference's function of the arguments. -/
theorem algebraic : Cert.algebraic_KernelIdeal_ReferenceIdeal := by
  intro m ρ m' ρ' hpre hagree
  refine ⟨fun c => Cert.ReferenceIdeal.RefValue.refG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Hand.result_eq m ρ c (hpre c)), (h c).2⟩)
      (Cert.KernelIdeal.Hand.run (F := Ideal) m ρ)
  · refine (θ_run (Cert.ReferenceIdeal.defs (F := Ideal)) _ _).mono (fun _ h c => ⟨(h c).1.trans ?_, (h c).2⟩)
      (Cert.ReferenceIdeal.RefValue.run_refG m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
